-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_arg5 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : IVec S4096x4096 32) (main_arg3 : FVec F S4096x4096 .f32) (main_arg4 : FVec F S4096x4096 .f32) (main_arg5 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg5 main_v13 main_v16
-- ==== Kernel.lean ====
abbrev S4096x4096 : Shape := ⟨2, ![4096, 4096]⟩
abbrev S1024x512 : Shape := ⟨2, ![1024, 512]⟩
abbrev S512x512 : Shape := ⟨2, ![512, 512]⟩

abbrev nBuf : Space → Nat
  | .hbm => 13
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S4096x4096, .f32⟩
  | .hbm, ⟨11, _⟩ => ⟨S4096x4096, .f32⟩
  | .hbm, ⟨12, _⟩ => ⟨S4096x4096, .i32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .i32⟩
  | .local _ .vmem, ⟨11, _⟩ => ⟨S1024x512, .i32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .i32⟩
  | .local _ .vmem, ⟨17, _⟩ => ⟨S1024x512, .i32⟩
  | .local _ .vmem, ⟨18, _⟩ => ⟨S1024x512, .f32⟩
  | .local _ .vmem, ⟨19, _⟩ => ⟨S1024x512, .bf16⟩
  | .local _ .vmem, ⟨20, _⟩ => ⟨S512x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def k0_cond4 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  iota_S512x512_d0_w32 : S512x512.Iotas .tc 32 [0]
  iota_S512x512_d1_w32 : S512x512.Iotas .tc 32 [1]
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .bf16 = 32 ∨ (Rect.block (s := S4096x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .bf16 = 32 ∨ (Rect.block (s := S4096x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .i32 = 32 ∨ (Rect.block (s := S4096x4096) S1024x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x4096.size a
  hwx0_6 : ∀ i : grid0.Coords, EltTy.bits .f32 = 32 ∨ (Rect.block (s := S4096x4096) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x4096.size a
  hwx0_7 : ∀ i : grid0.Coords, EltTy.bits .f32 = 32 ∨ (Rect.block (s := S4096x4096) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S4096x4096.size a
  hwx0_8 : ∀ i : grid0.Coords, EltTy.bits .i32 = 32 ∨ (Rect.block (s := S4096x4096) S1024x512.size (cc0_transform_8 i) (hinb0_8 i)).WholeWords (EltTy.packing .i32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond4 i == 1#1) | 7 => fun i => !(k0_cond4 i == 1#1) | 8 => fun i => !(k0_cond4 i == 1#1) | ⟨_ + 9, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .i1⟩
  | .hbm, ⟨40, _⟩ => ⟨S4096x4096, .f32⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .i32⟩
  | .hbm, ⟨49, _⟩ => ⟨S4096x4096, .i32⟩
  | .hbm, ⟨50, _⟩ => ⟨S4096x4096, .i32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .i32⟩
  | .hbm, ⟨55, _⟩ => ⟨S4096x4096, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S_, .i32⟩
  | .hbm, ⟨62, _⟩ => ⟨S4096x4096, .i32⟩
  | .hbm, ⟨63, _⟩ => ⟨S4096x4096, .i32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_c_11 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v36 : Ref sig .tc := ⟨.hbm, 63, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KB.Common.lean ====
/-
  The grid of the fused step is (i, j, k) = (row tile of 1024, column tile of 512, contraction tile of 512), walked with k
  fastest. What the body does at a point depends on four tests of (j, k) only:
    * k = 0      : the accumulator tile is reset to zero before anything is added to it;
    * k = j      : the contraction tile of the recurrent weights sits on the matrix diagonal — its own diagonal is
                   masked out, and the spike tile of that point, which is the (i, j) tile, is kept for the reset term;
    * k ≠ j      : the recurrent weight tile is used as it is;
    * k = 7      : the last contraction step — the three results of the (i, j) tile are computed from the accumulator
                   and stored; at every other point the three output windows are left alone and are not written back.
  This module states those tests as the body computes them, decides over the 256 points which combinations occur and
  where the output windows are idle, and names the staging and scratch memrefs a point runs on.
-/
import proofs.«142747_j87522843560962_2_alg».proof.Proof.Gen.Kernel.Frame
import proofs.«142747_j87522843560962_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four tests, as the body computes them from the coordinates -/

/-- k = 0 (the contraction's first step). -/
abbrev cond1 (i : grid0.Coords) : Prop :=
  Scalar.cmpi .ne (Scalar.extui (Scalar.cmpi .eq (BitVec.ofNat 32 (i 2).val) 0#32)) 0#32 = 1#1
/-- k = j (the contraction tile lies on the diagonal of the recurrent weights). -/
abbrev cond2 (i : grid0.Coords) : Prop :=
  Scalar.cmpi .ne (Scalar.extui (Scalar.cmpi .eq (BitVec.ofNat 32 (i 2).val) (BitVec.ofNat 32 (i 1).val))) 0#32 = 1#1
/-- k ≠ j, computed as the negation of the bit of k = j. -/
abbrev cond3 (i : grid0.Coords) : Prop :=
  Scalar.cmpi .ne (Scalar.extui (Scalar.xori (Scalar.cmpi .eq (BitVec.ofNat 32 (i 2).val) (BitVec.ofNat 32 (i 1).val)) 1#1)) 0#32 = 1#1
/-- k = 7 (the contraction's last step). -/
abbrev cond4 (i : grid0.Coords) : Prop := k0_cond4 i = 1#1

/-- The third test is the negation of the second, at every point. -/
theorem c3_iff : ∀ t : Fin cfg0.N, cond3 (grid0.coords t) ↔ ¬cond2 (grid0.coords t) :=
  (by decide +kernel : ∀ t : Fin grid0.N, cond3 (grid0.coords t) ↔ ¬cond2 (grid0.coords t))
/-- The first and the last step of the contraction are different points. -/
theorem c1_not_c4 : ∀ t : Fin cfg0.N, cond1 (grid0.coords t) → ¬cond4 (grid0.coords t) :=
  (by decide +kernel : ∀ t : Fin grid0.N, cond1 (grid0.coords t) → ¬cond4 (grid0.coords t))
/-- The first point of all is a first step on the diagonal (i = j = k = 0). -/
theorem c1_zero : ∀ t : Fin cfg0.N, t.val = 0 → cond1 (grid0.coords t) ∧ cond2 (grid0.coords t) :=
  (by decide +kernel : ∀ t : Fin grid0.N, t.val = 0 → cond1 (grid0.coords t) ∧ cond2 (grid0.coords t))

/-! ## Where the windows are idle and where they are written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Before the last contraction step the three output windows are idle and are not written back. -/
theorem idleAt6 : ∀ t : Fin cfg0.N, ¬cond4 (grid0.coords t) → cfg0.idle 6 (grid0.coords t) = true := by decide +kernel
theorem idleAt7 : ∀ t : Fin cfg0.N, ¬cond4 (grid0.coords t) → cfg0.idle 7 (grid0.coords t) = true := by decide +kernel
theorem idleAt8 : ∀ t : Fin cfg0.N, ¬cond4 (grid0.coords t) → cfg0.idle 8 (grid0.coords t) = true := by decide +kernel
theorem noFlush6 : ∀ t : Fin cfg0.N, ¬cond4 (grid0.coords t) → (cfg0.win 6).flush t = false := by decide +kernel
theorem noFlush7 : ∀ t : Fin cfg0.N, ¬cond4 (grid0.coords t) → (cfg0.win 7).flush t = false := by decide +kernel
theorem noFlush8 : ∀ t : Fin cfg0.N, ¬cond4 (grid0.coords t) → (cfg0.win 8).flush t = false := by decide +kernel
/-- At the last contraction step they are stored into. -/
theorem liveAt6 : ∀ t : Fin cfg0.N, cond4 (grid0.coords t) → cfg0.idle 6 (grid0.coords t) = false := by decide +kernel
theorem liveAt7 : ∀ t : Fin cfg0.N, cond4 (grid0.coords t) → cfg0.idle 7 (grid0.coords t) = false := by decide +kernel
theorem liveAt8 : ∀ t : Fin cfg0.N, cond4 (grid0.coords t) → cfg0.idle 8 (grid0.coords t) = false := by decide +kernel

/-! ## The memrefs a point runs on -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .i32 := win0_8.stage (cfg0.slots t 8)
abbrev hs8 (t : Fin cfg0.N) : (ms8 t).IsWhole := hstage0_8 ((cfg0.slots t 8).cast nbuf0_8)
/-- The three scratch tiles: the accumulator, the kept spike tile, the recurrent weight tile as multiplied. -/
abbrev scAcc : Memref sig .tc .vmem S1024x512 .f32 := Memref.whole cc0_scratch0
abbrev scDiag : Memref sig .tc .vmem S1024x512 .bf16 := Memref.whole cc0_scratch1
abbrev scW : Memref sig .tc .vmem S512x512 .bf16 := Memref.whole cc0_scratch2
/-- One staging buffer per output window and the scratch tiles as views: contents are stated through them. -/
abbrev VO6 : View sig .tc .vmem S1024x512 .f32 := (Memref.whole cc0_stg6_0 : Memref sig .tc .vmem S1024x512 .f32).view
abbrev VO7 : View sig .tc .vmem S1024x512 .f32 := (Memref.whole cc0_stg7_0 : Memref sig .tc .vmem S1024x512 .f32).view
abbrev VO8 : View sig .tc .vmem S1024x512 .i32 := (Memref.whole cc0_stg8_0 : Memref sig .tc .vmem S1024x512 .i32).view
abbrev VAcc : View sig .tc .vmem S1024x512 .f32 := scAcc.view
abbrev VDiag : View sig .tc .vmem S1024x512 .bf16 := scDiag.view

/-- What the launch hands the body beside the windows: the three scratch tiles at some contents and the generator
    register at some state. -/
theorem PhiA_eq (c : Dev nD) :
    (Pipeline.ΦA spec0 c : sProp 𝕄)
      = iprop(iprop((∃ d, owns (c : Thread nD τ) scAcc fullShare d) ∗ (∃ d, owns (c : Thread nD τ) scDiag fullShare d)
          ∗ (∃ d, owns (c : Thread nD τ) scW fullShare d)) ∗ (∃ r, prngReg c r)) := by
  unfold Pipeline.ΦA; rw [scopedRest0_eq]; simp only [scAcc, scDiag, scW, owns_whole]; try rfl

end Cert.Kernel.Body

end
-- ==== Proof.KB.RunA.lean ====
/- The body at a first contraction step on the diagonal (k = 0 = j): the accumulator tile is reset, the spike tile is kept, the recurrent weight tile is masked.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KB.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : cond1 i) (hc2 : cond2 i) (hc3 : ¬cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) :
    Σ' (LS0 : List (View.Piece (Elt F) S1024x512 .f32)) (LS1 : List (View.Piece (Elt F) S1024x512 .bf16)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.Kernel.Body

end
-- ==== Proof.KB.RunB.lean ====
/- The body at a first contraction step off the diagonal (k = 0 ≠ j): the accumulator tile is reset, the recurrent weight tile is taken as it is.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KB.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : cond1 i) (hc2 : ¬cond2 i) (hc3 : cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs1 : Vec F S1024x512 .bf16) :
    Σ' (LS0 : List (View.Piece (Elt F) S1024x512 .f32)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ (∃ d, owns (c : Thread nD τ) arg12 fullShare d)
            ∗ owns (c : Thread nD τ) arg13 fullShare xs1
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ owns (c : Thread nD τ) arg13 fullShare xs1
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%fs1, %hfs1, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs1
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]
    · iexists _; isplitr; · ipureintro; exact harg13.read_unread _
      iexact HS1
    iexists _; iexact HS2

end Cert.Kernel.Body

end
-- ==== Proof.KB.RunC.lean ====
/- The body at an inner contraction step on the diagonal (0 < k = j < 7): the spike tile is kept, the recurrent weight tile is masked.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KB.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : cond2 i) (hc3 : ¬cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) :
    Σ' (LS0 : List (View.Piece (Elt F) S1024x512 .f32)) (LS1 : List (View.Piece (Elt F) S1024x512 .bf16)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ owns (c : Thread nD τ) arg12 fullShare xs0
            ∗ (∃ d, owns (c : Thread nD τ) arg13 fullShare d)
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.Kernel.Body

end
-- ==== Proof.KB.RunD.lean ====
/- The body at an inner contraction step off the diagonal (0 < k < 7, k ≠ j): two products are added to the accumulator tile and nothing else changes.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KB.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runD (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : ¬cond2 i) (hc3 : cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) (xs1 : Vec F S1024x512 .bf16) :
    Σ' (LS0 : List (View.Piece (Elt F) S1024x512 .f32)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ owns (c : Thread nD τ) arg12 fullShare xs0
            ∗ owns (c : Thread nD τ) arg13 fullShare xs1
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ owns (c : Thread nD τ) arg13 fullShare xs1
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]
    · iexists _; isplitr; · ipureintro; exact harg13.read_unread _
      iexact HS1
    iexists _; iexact HS2

end Cert.Kernel.Body

end
-- ==== Proof.KB.RunE.lean ====
/- The body at the last contraction step on the diagonal (k = 7 = j): the spike tile is kept at this very point, and the three results are stored.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KB.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runE (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : cond2 i) (hc3 : ¬cond3 i) (hc4 : cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) :
    Σ' (L6 : List (View.Piece (Elt F) S1024x512 .f32)) (L7 : List (View.Piece (Elt F) S1024x512 .f32)) (L8 : List (View.Piece (Elt F) S1024x512 .i32)) (LS0 : List (View.Piece (Elt F) S1024x512 .f32)) (LS1 : List (View.Piece (Elt F) S1024x512 .bf16)), { LS2 : List (View.Piece (Elt F) S512x512 .bf16) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xs0
            ∗ (∃ d, owns (c : Thread nD τ) arg13 fullShare d)
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.Kernel.Body

end
-- ==== Proof.KB.RunF.lean ====
/- The body at the last contraction step off the diagonal (k = 7 ≠ j): the three results are stored, with the spike tile kept at the earlier point k = j.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KB.RunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runF (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : ¬cond2 i) (hc3 : cond3 i) (hc4 : cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) (xs1 : Vec F S1024x512 .bf16) :
    Σ' (L6 : List (View.Piece (Elt F) S1024x512 .f32)) (L7 : List (View.Piece (Elt F) S1024x512 .f32)) (L8 : List (View.Piece (Elt F) S1024x512 .i32)) (LS0 : List (View.Piece (Elt F) S1024x512 .f32)), { LS2 : List (View.Piece (Elt F) S512x512 .bf16) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xs0
            ∗ owns (c : Thread nD τ) arg13 fullShare xs1
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS0)
                ∗ owns (c : Thread nD τ) arg13 fullShare xs1
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]; · iexists _; iexact HS0
    isplitl [HS1]
    · iexists _; isplitr; · ipureintro; exact harg13.read_unread _
      iexact HS1
    iexists _; iexact HS2

end Cert.Kernel.Body

end
-- ==== Proof.KB.Acc.lean ====
/-
  What the grid carries from point to point. Two scratch tiles outlive a point: the accumulator tile, which over the
  eight contraction steps k = 0..7 of one (i, j) collects the products of the input tiles with the input weight tiles and
  of the spike tiles with the recurrent weight tiles; and the kept spike tile, stored at the step k = j and read at
  k = 7. This module names what the five tiles — the three results, the accumulator, the kept spikes — hold after every
  point, by recursion along the walk of the grid: at each point the case the four tests select, run on the point's input
  tiles and on what the point before left. That is the proof data of the pipeline; the body meets its obligation
  at every point by the run of the point's case, and the launch theorem for a tracked scratch gives the run of the whole
  program, hence the frame.
-/
import proofs.«142747_j87522843560962_2_alg».proof.Proof.KB.RunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stored pieces read back, and that they cover their tiles -/

/-- The five tiles: the membrane potential, the spikes and the refractory counters of the (i, j) tile; the accumulator; the
    kept spike tile. -/
abbrev Tiles (F : FTy → Type) [FloatOps F] : Type :=
  Vec F S1024x512 .f32 × Vec F S1024x512 .f32 × Vec F S1024x512 .i32 × Vec F S1024x512 .f32 × Vec F S1024x512 .bf16

abbrev rd6 (L : List (View.Piece (Elt F) S1024x512 .f32)) : Vec F S1024x512 .f32 := VO6.read (Elt F) (VO6.writes (Elt F) VO6.junk L)
abbrev rd7 (L : List (View.Piece (Elt F) S1024x512 .f32)) : Vec F S1024x512 .f32 := VO7.read (Elt F) (VO7.writes (Elt F) VO7.junk L)
abbrev rd8 (L : List (View.Piece (Elt F) S1024x512 .i32)) : Vec F S1024x512 .i32 := VO8.read (Elt F) (VO8.writes (Elt F) VO8.junk L)
abbrev rdAcc (L : List (View.Piece (Elt F) S1024x512 .f32)) : Vec F S1024x512 .f32 := VAcc.read (Elt F) (VAcc.writes (Elt F) VAcc.junk L)
abbrev rdDiag (L : List (View.Piece (Elt F) S1024x512 .bf16)) : Vec F S1024x512 .bf16 := VDiag.read (Elt F) (VDiag.writes (Elt F) VDiag.junk L)

section Covers
variable {c : Dev nD} {i : grid0.Coords} {arg3 : Memref sig .tc .vmem S1024x512 .bf16} {harg3 : arg3.IsWhole} {arg4 : Memref sig .tc .vmem S512x512 .bf16} {harg4 : arg4.IsWhole} {arg5 : Memref sig .tc .vmem S1024x512 .bf16} {harg5 : arg5.IsWhole} {arg6 : Memref sig .tc .vmem S512x512 .bf16} {harg6 : arg6.IsWhole} {arg7 : Memref sig .tc .vmem S1024x512 .f32} {harg7 : arg7.IsWhole} {arg8 : Memref sig .tc .vmem S1024x512 .i32} {harg8 : arg8.IsWhole} {arg9 : Memref sig .tc .vmem S1024x512 .f32} {harg9 : arg9.IsWhole} {arg10 : Memref sig .tc .vmem S1024x512 .f32} {harg10 : arg10.IsWhole} {arg11 : Memref sig .tc .vmem S1024x512 .i32} {harg11 : arg11.IsWhole} {arg12 : Memref sig .tc .vmem S1024x512 .f32} {harg12 : arg12.IsWhole} {arg13 : Memref sig .tc .vmem S1024x512 .bf16} {harg13 : arg13.IsWhole} {arg14 : Memref sig .tc .vmem S512x512 .bf16} {harg14 : arg14.IsWhole} {x0 : Vec F S1024x512 .bf16} {x1 : Vec F S512x512 .bf16} {x2 : Vec F S1024x512 .bf16} {x3 : Vec F S512x512 .bf16} {x4 : Vec F S1024x512 .f32} {x5 : Vec F S1024x512 .i32}

/- Every tile a case stores into it stores whole: the stored pieces tile it. -/
theorem coverAcc_A {hc1 : cond1 i} {hc2 : cond2 i} {hc3 : ¬cond3 i} {hc4 : ¬cond4 i} (y : S1024x512.Idx) :
    ∃ pc ∈ (runA c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5).1, y ∈ pc.1.set :=
  View.cover_of_tiledL _ S1024x512.size (by sl_kernel_rfl) y
theorem coverDiag_A {hc1 : cond1 i} {hc2 : cond2 i} {hc3 : ¬cond3 i} {hc4 : ¬cond4 i} (y : S1024x512.Idx) :
    ∃ pc ∈ (runA c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5).2.1, y ∈ pc.1.set :=
  View.cover_of_tiledL _ S1024x512.size (by sl_kernel_rfl) y
theorem coverAcc_B {hc1 : cond1 i} {hc2 : ¬cond2 i} {hc3 : cond3 i} {hc4 : ¬cond4 i} {xs1 : Vec F S1024x512 .bf16} (y : S1024x512.Idx) :
    ∃ pc ∈ (runB c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs1).1, y ∈ pc.1.set :=
  View.cover_of_tiledL _ S1024x512.size (by sl_kernel_rfl) y
theorem coverAcc_C {hc1 : ¬cond1 i} {hc2 : cond2 i} {hc3 : ¬cond3 i} {hc4 : ¬cond4 i} {xs0 : Vec F S1024x512 .f32} (y : S1024x512.Idx) :
    ∃ pc ∈ (runC c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).1, y ∈ pc.1.set :=
  View.cover_of_tiledL _ S1024x512.size (by sl_kernel_rfl) y
theorem coverDiag_C {hc1 : ¬cond1 i} {hc2 : cond2 i} {hc3 : ¬cond3 i} {hc4 : ¬cond4 i} {xs0 : Vec F S1024x512 .f32} (y : S1024x512.Idx) :
    ∃ pc ∈ (runC c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.1, y ∈ pc.1.set :=
  View.cover_of_tiledL _ S1024x512.size (by sl_kernel_rfl) y
theorem coverAcc_D {hc1 : ¬cond1 i} {hc2 : ¬cond2 i} {hc3 : cond3 i} {hc4 : ¬cond4 i} {xs0 : Vec F S1024x512 .f32} {xs1 : Vec F S1024x512 .bf16} (y : S1024x512.Idx) :
    ∃ pc ∈ (runD c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).1, y ∈ pc.1.set :=
  View.cover_of_tiledL _ S1024x512.size (by sl_kernel_rfl) y
theorem cover6_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).1, y ∈ pc.1.set :=
  View.cover_of_tiledL _ S1024x512.size (by sl_kernel_rfl) y
theorem cover7_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.1, y ∈ pc.1.set :=
  View.cover_of_tiledL _ S1024x512.size (by sl_kernel_rfl) y
theorem cover8_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.1, y ∈ pc.1.set :=
  View.cover_of_tiledL _ S1024x512.size (by sl_kernel_rfl) y
theorem coverAcc_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.2.1, y ∈ pc.1.set :=
  View.cover_of_tiledL _ S1024x512.size (by sl_kernel_rfl) y
theorem coverDiag_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.2.2.1, y ∈ pc.1.set :=
  View.cover_of_tiledL _ S1024x512.size (by sl_kernel_rfl) y
theorem cover6_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).1, y ∈ pc.1.set :=
  View.cover_of_tiledL _ S1024x512.size (by sl_kernel_rfl) y
theorem cover7_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.1, y ∈ pc.1.set :=
  View.cover_of_tiledL _ S1024x512.size (by sl_kernel_rfl) y
theorem cover8_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.2.1, y ∈ pc.1.set :=
  View.cover_of_tiledL _ S1024x512.size (by sl_kernel_rfl) y
theorem coverAcc_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.2.2.1, y ∈ pc.1.set :=
  View.cover_of_tiledL _ S1024x512.size (by sl_kernel_rfl) y
end Covers

/-! ## The cases at a point of the grid -/

abbrev rA (c : Dev nD) (t : Fin cfg0.N) (h1 : cond1 (grid0.coords t)) (h2 : cond2 (grid0.coords t)) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 (fun h => (c3_iff t).mp h h2) (c1_not_c4 t h1) (iblk m c 0 t) (iblk m c 1 t) (iblk m c 2 t) (iblk m c 3 t) (iblk m c 4 t) (iblk m c 5 t)
abbrev rB (c : Dev nD) (t : Fin cfg0.N) (h1 : cond1 (grid0.coords t)) (h2 : ¬cond2 (grid0.coords t)) (xs1 : Vec F S1024x512 .bf16) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 ((c3_iff t).mpr h2) (c1_not_c4 t h1) (iblk m c 0 t) (iblk m c 1 t) (iblk m c 2 t) (iblk m c 3 t) (iblk m c 4 t) (iblk m c 5 t) xs1
abbrev rC (c : Dev nD) (t : Fin cfg0.N) (h1 : ¬cond1 (grid0.coords t)) (h2 : cond2 (grid0.coords t)) (h4 : ¬cond4 (grid0.coords t)) (xs0 : Vec F S1024x512 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 (fun h => (c3_iff t).mp h h2) h4 (iblk m c 0 t) (iblk m c 1 t) (iblk m c 2 t) (iblk m c 3 t) (iblk m c 4 t) (iblk m c 5 t) xs0
abbrev rD (c : Dev nD) (t : Fin cfg0.N) (h1 : ¬cond1 (grid0.coords t)) (h2 : ¬cond2 (grid0.coords t)) (h4 : ¬cond4 (grid0.coords t)) (xs0 : Vec F S1024x512 .f32) (xs1 : Vec F S1024x512 .bf16) :=
  runD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 ((c3_iff t).mpr h2) h4 (iblk m c 0 t) (iblk m c 1 t) (iblk m c 2 t) (iblk m c 3 t) (iblk m c 4 t) (iblk m c 5 t) xs0 xs1
abbrev rE (c : Dev nD) (t : Fin cfg0.N) (h1 : ¬cond1 (grid0.coords t)) (h2 : cond2 (grid0.coords t)) (h4 : cond4 (grid0.coords t)) (xs0 : Vec F S1024x512 .f32) :=
  runE (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 (fun h => (c3_iff t).mp h h2) h4 (iblk m c 0 t) (iblk m c 1 t) (iblk m c 2 t) (iblk m c 3 t) (iblk m c 4 t) (iblk m c 5 t) xs0
abbrev rF (c : Dev nD) (t : Fin cfg0.N) (h1 : ¬cond1 (grid0.coords t)) (h2 : ¬cond2 (grid0.coords t)) (h4 : cond4 (grid0.coords t)) (xs0 : Vec F S1024x512 .f32) (xs1 : Vec F S1024x512 .bf16) :=
  runF (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 ((c3_iff t).mpr h2) h4 (iblk m c 0 t) (iblk m c 1 t) (iblk m c 2 t) (iblk m c 3 t) (iblk m c 4 t) (iblk m c 5 t) xs0 xs1

/-- A first step on the diagonal: the accumulator and the kept spike tile are what the point stores. -/
def tilesA (c : Dev nD) (t : Fin cfg0.N) (h1 : cond1 (grid0.coords t)) (h2 : cond2 (grid0.coords t)) : Tiles F :=
  (rd6 (F := F) [], rd7 (F := F) [], rd8 (F := F) [], rdAcc (rA m c t h1 h2).1, rdDiag (rA m c t h1 h2).2.1)
/-- A first step off the diagonal: the kept spike tile is the one found. -/
def tilesB (c : Dev nD) (t : Fin cfg0.N) (h1 : cond1 (grid0.coords t)) (h2 : ¬cond2 (grid0.coords t)) (xs1 : Vec F S1024x512 .bf16) : Tiles F :=
  (rd6 (F := F) [], rd7 (F := F) [], rd8 (F := F) [], rdAcc (rB m c t h1 h2 xs1).1, xs1)
/-- An inner step on the diagonal. -/
def tilesC (c : Dev nD) (t : Fin cfg0.N) (h1 : ¬cond1 (grid0.coords t)) (h2 : cond2 (grid0.coords t)) (h4 : ¬cond4 (grid0.coords t)) (xs0 : Vec F S1024x512 .f32) : Tiles F :=
  (rd6 (F := F) [], rd7 (F := F) [], rd8 (F := F) [], rdAcc (rC m c t h1 h2 h4 xs0).1, rdDiag (rC m c t h1 h2 h4 xs0).2.1)
/-- An inner step off the diagonal. -/
def tilesD (c : Dev nD) (t : Fin cfg0.N) (h1 : ¬cond1 (grid0.coords t)) (h2 : ¬cond2 (grid0.coords t)) (h4 : ¬cond4 (grid0.coords t)) (xs0 : Vec F S1024x512 .f32) (xs1 : Vec F S1024x512 .bf16) : Tiles F :=
  (rd6 (F := F) [], rd7 (F := F) [], rd8 (F := F) [], rdAcc (rD m c t h1 h2 h4 xs0 xs1).1, xs1)
/-- The last step on the diagonal: all five tiles are stored. -/
def tilesE (c : Dev nD) (t : Fin cfg0.N) (h1 : ¬cond1 (grid0.coords t)) (h2 : cond2 (grid0.coords t)) (h4 : cond4 (grid0.coords t)) (xs0 : Vec F S1024x512 .f32) : Tiles F :=
  (rd6 (rE m c t h1 h2 h4 xs0).1, rd7 (rE m c t h1 h2 h4 xs0).2.1, rd8 (rE m c t h1 h2 h4 xs0).2.2.1,
    rdAcc (rE m c t h1 h2 h4 xs0).2.2.2.1, rdDiag (rE m c t h1 h2 h4 xs0).2.2.2.2.1)
/-- The last step off the diagonal. -/
def tilesF (c : Dev nD) (t : Fin cfg0.N) (h1 : ¬cond1 (grid0.coords t)) (h2 : ¬cond2 (grid0.coords t)) (h4 : cond4 (grid0.coords t)) (xs0 : Vec F S1024x512 .f32) (xs1 : Vec F S1024x512 .bf16) : Tiles F :=
  (rd6 (rF m c t h1 h2 h4 xs0 xs1).1, rd7 (rF m c t h1 h2 h4 xs0 xs1).2.1, rd8 (rF m c t h1 h2 h4 xs0 xs1).2.2.1,
    rdAcc (rF m c t h1 h2 h4 xs0 xs1).2.2.2.1, xs1)

/-! ## The tiles after each point -/

/-- THE ACCUMULATION: what the five tiles hold after the body at position `n` of the walk — the case the tests select
    there, on the accumulator and the kept spike tile the position before left. -/
def outsAt (c : Dev nD) : (n : ℕ) → n < cfg0.N → Tiles F
  | 0, hn => tilesA m c ⟨0, hn⟩ (c1_zero ⟨0, hn⟩ rfl).1 (c1_zero ⟨0, hn⟩ rfl).2
  | n + 1, hn =>
    if h1 : cond1 (grid0.coords ⟨n + 1, hn⟩) then
      if h2 : cond2 (grid0.coords ⟨n + 1, hn⟩) then tilesA m c ⟨n + 1, hn⟩ h1 h2
      else tilesB m c ⟨n + 1, hn⟩ h1 h2 (outsAt c n (Nat.lt_of_succ_lt hn)).2.2.2.2
    else if h4 : cond4 (grid0.coords ⟨n + 1, hn⟩) then
      if h2 : cond2 (grid0.coords ⟨n + 1, hn⟩) then tilesE m c ⟨n + 1, hn⟩ h1 h2 h4 (outsAt c n (Nat.lt_of_succ_lt hn)).2.2.2.1
      else tilesF m c ⟨n + 1, hn⟩ h1 h2 h4 (outsAt c n (Nat.lt_of_succ_lt hn)).2.2.2.1 (outsAt c n (Nat.lt_of_succ_lt hn)).2.2.2.2
    else
      if h2 : cond2 (grid0.coords ⟨n + 1, hn⟩) then tilesC m c ⟨n + 1, hn⟩ h1 h2 h4 (outsAt c n (Nat.lt_of_succ_lt hn)).2.2.2.1
      else tilesD m c ⟨n + 1, hn⟩ h1 h2 h4 (outsAt c n (Nat.lt_of_succ_lt hn)).2.2.2.1 (outsAt c n (Nat.lt_of_succ_lt hn)).2.2.2.2

/-- The accumulator and the kept spike tile as the point `t` finds them (what the point before left). -/
abbrev prevAcc (c : Dev nD) (t : Fin cfg0.N) : Vec F S1024x512 .f32 :=
  (outsAt m c (t.val - 1) (Nat.lt_of_le_of_lt (Nat.sub_le _ _) t.isLt)).2.2.2.1
abbrev prevDiag (c : Dev nD) (t : Fin cfg0.N) : Vec F S1024x512 .bf16 :=
  (outsAt m c (t.val - 1) (Nat.lt_of_le_of_lt (Nat.sub_le _ _) t.isLt)).2.2.2.2

theorem outsAt_A (c : Dev nD) (t : Fin cfg0.N) (h1 : cond1 (grid0.coords t)) (h2 : cond2 (grid0.coords t)) : outsAt m c t.val t.isLt = tilesA m c t h1 h2 := by
  obtain ⟨n, hn⟩ := t
  cases n with
  | zero => exact rfl
  | succ n => exact (dif_pos h1).trans ((dif_pos h2).trans rfl)
theorem outsAt_B (c : Dev nD) (t : Fin cfg0.N) (h1 : cond1 (grid0.coords t)) (h2 : ¬cond2 (grid0.coords t)) : outsAt m c t.val t.isLt = tilesB m c t h1 h2 (prevDiag m c t) := by
  obtain ⟨n, hn⟩ := t
  cases n with
  | zero => exact absurd (c1_zero ⟨0, hn⟩ rfl).2 h2
  | succ n => exact (dif_pos h1).trans ((dif_neg h2).trans rfl)
theorem outsAt_C (c : Dev nD) (t : Fin cfg0.N) (h1 : ¬cond1 (grid0.coords t)) (h2 : cond2 (grid0.coords t)) (h4 : ¬cond4 (grid0.coords t)) : outsAt m c t.val t.isLt = tilesC m c t h1 h2 h4 (prevAcc m c t) := by
  obtain ⟨n, hn⟩ := t
  cases n with
  | zero => exact absurd (c1_zero ⟨0, hn⟩ rfl).1 h1
  | succ n => exact (dif_neg h1).trans ((dif_neg h4).trans ((dif_pos h2).trans rfl))
theorem outsAt_D (c : Dev nD) (t : Fin cfg0.N) (h1 : ¬cond1 (grid0.coords t)) (h2 : ¬cond2 (grid0.coords t)) (h4 : ¬cond4 (grid0.coords t)) : outsAt m c t.val t.isLt = tilesD m c t h1 h2 h4 (prevAcc m c t) (prevDiag m c t) := by
  obtain ⟨n, hn⟩ := t
  cases n with
  | zero => exact absurd (c1_zero ⟨0, hn⟩ rfl).1 h1
  | succ n => exact (dif_neg h1).trans ((dif_neg h4).trans ((dif_neg h2).trans rfl))
theorem outsAt_E (c : Dev nD) (t : Fin cfg0.N) (h1 : ¬cond1 (grid0.coords t)) (h2 : cond2 (grid0.coords t)) (h4 : cond4 (grid0.coords t)) : outsAt m c t.val t.isLt = tilesE m c t h1 h2 h4 (prevAcc m c t) := by
  obtain ⟨n, hn⟩ := t
  cases n with
  | zero => exact absurd (c1_zero ⟨0, hn⟩ rfl).1 h1
  | succ n => exact (dif_neg h1).trans ((dif_pos h4).trans ((dif_pos h2).trans rfl))
theorem outsAt_F (c : Dev nD) (t : Fin cfg0.N) (h1 : ¬cond1 (grid0.coords t)) (h2 : ¬cond2 (grid0.coords t)) (h4 : cond4 (grid0.coords t)) : outsAt m c t.val t.isLt = tilesF m c t h1 h2 h4 (prevAcc m c t) (prevDiag m c t) := by
  obtain ⟨n, hn⟩ := t
  cases n with
  | zero => exact absurd (c1_zero ⟨0, hn⟩ rfl).1 h1
  | succ n => exact (dif_neg h1).trans ((dif_pos h4).trans ((dif_neg h2).trans rfl))

/-! ## The invariant between points -/

/-- Before position `n`: at the start what the launch hands over (every scratch tile at anything); afterwards the
    accumulator and the kept spike tile at what the position before left, the recurrent weight tile at anything. -/
def PhiS (c : Dev nD) : (n : ℕ) → n ≤ cfg0.N → sProp 𝕄
  | 0, _ => Pipeline.ΦA spec0 c
  | n + 1, hn => iprop(iprop(owns (c : Thread nD τ) scAcc fullShare (outsAt m c n hn).2.2.2.1 ∗ owns (c : Thread nD τ) scDiag fullShare (outsAt m c n hn).2.2.2.2
      ∗ (∃ d, owns (c : Thread nD τ) scW fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare (outsAt m c n hn).2.2.2.1 ∗ owns (c : Thread nD τ) scDiag fullShare (outsAt m c n hn).2.2.2.2
      ∗ (∃ d, owns (c : Thread nD τ) scW fullShare d)) ∗ (∃ r, prngReg c r)) := rfl
theorem PhiS_pos (c : Dev nD) (n : ℕ) (h : n ≤ cfg0.N) (hz : n ≠ 0) :
    PhiS m c n h = iprop(iprop(owns (c : Thread nD τ) scAcc fullShare (outsAt m c (n - 1) (by omega)).2.2.2.1 ∗ owns (c : Thread nD τ) scDiag fullShare (outsAt m c (n - 1) (by omega)).2.2.2.2
      ∗ (∃ d, owns (c : Thread nD τ) scW fullShare d)) ∗ (∃ r, prngReg c r)) := by
  cases n with
  | zero => exact absurd rfl hz
  | succ n => rfl

/-! ## The proof data of the pipeline -/

/-- On core `c`: the arrays as the region finds them; after the body at point `t` each input's buffer at its block and the three
    results' buffers at the accumulation's tiles; the invariant above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2.1 := by dsimp only [dats]
theorem after8 (c : Dev nD) (t : Fin cfg0.N) : (dats m 0 c).after 8 t = (outsAt m c t.val t.isLt).2.2.1 := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-- What the obligation asks of an input's buffer after the body: its block, still. -/
theorem leavesIn0 (c : Dev nD) (t : Fin cfg0.N) : (dats m 0 c).leavesExact 0 t = owns (c : Thread nD τ) (ms0 t) fullShare (iblk m c 0 t) := by
  unfold Dat.leavesExact; rw [liveAt0 t, after0]
theorem leavesIn1 (c : Dev nD) (t : Fin cfg0.N) : (dats m 0 c).leavesExact 1 t = owns (c : Thread nD τ) (ms1 t) fullShare (iblk m c 1 t) := by
  unfold Dat.leavesExact; rw [liveAt1 t, after1]
theorem leavesIn2 (c : Dev nD) (t : Fin cfg0.N) : (dats m 0 c).leavesExact 2 t = owns (c : Thread nD τ) (ms2 t) fullShare (iblk m c 2 t) := by
  unfold Dat.leavesExact; rw [liveAt2 t, after2]
theorem leavesIn3 (c : Dev nD) (t : Fin cfg0.N) : (dats m 0 c).leavesExact 3 t = owns (c : Thread nD τ) (ms3 t) fullShare (iblk m c 3 t) := by
  unfold Dat.leavesExact; rw [liveAt3 t, after3]
theorem leavesIn4 (c : Dev nD) (t : Fin cfg0.N) : (dats m 0 c).leavesExact 4 t = owns (c : Thread nD τ) (ms4 t) fullShare (iblk m c 4 t) := by
  unfold Dat.leavesExact; rw [liveAt4 t, after4]
theorem leavesIn5 (c : Dev nD) (t : Fin cfg0.N) : (dats m 0 c).leavesExact 5 t = owns (c : Thread nD τ) (ms5 t) fullShare (iblk m c 5 t) := by
  unfold Dat.leavesExact; rw [liveAt5 t, after5]
/-- And of a result's buffer at a last contraction step: the accumulation's tile. -/
theorem leavesOut6 (c : Dev nD) (t : Fin cfg0.N) (h4 : cond4 (grid0.coords t)) : (dats m 0 c).leavesExact 6 t = owns (c : Thread nD τ) (ms6 t) fullShare (outsAt m c t.val t.isLt).1 := by
  unfold Dat.leavesExact; rw [liveAt6 t h4, after6]
theorem leavesOut7 (c : Dev nD) (t : Fin cfg0.N) (h4 : cond4 (grid0.coords t)) : (dats m 0 c).leavesExact 7 t = owns (c : Thread nD τ) (ms7 t) fullShare (outsAt m c t.val t.isLt).2.1 := by
  unfold Dat.leavesExact; rw [liveAt7 t h4, after7]
theorem leavesOut8 (c : Dev nD) (t : Fin cfg0.N) (h4 : cond4 (grid0.coords t)) : (dats m 0 c).leavesExact 8 t = owns (c : Thread nD τ) (ms8 t) fullShare (outsAt m c t.val t.isLt).2.2.1 := by
  unfold Dat.leavesExact; rw [liveAt8 t h4, after8]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/- One lemma per case: the inputs' buffers hold their blocks; the invariant hands the body the scratch tiles (at anything before
   the first point, at what the point before left afterwards); the case's run applies; each stored tile is taken back at its
   pieces read back (they cover it), the untouched ones as they were. -/
set_option maxHeartbeats 4000000 in
theorem sound_A (c : Dev nD) (t : Fin cfg0.N) (h1 : cond1 (grid0.coords t)) (h2 : cond2 (grid0.coords t)) :
    bodyPre m c t ⊢ wp frame (wpE (defs₀ (F := F)) Variants.none c none) Set.univ (bodyAt0 t) (fun _ => bodyPost m c t) := by
  have h4 : ¬cond4 (grid0.coords t) := c1_not_c4 t h1
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_A m c t h1 h2]
  unfold tilesA; dsimp only
  by_cases hz : t.val = 0
  · rw [PhiS_castSucc m c t, PhiS_zero m c _ _ hz, PhiA_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rA m c t h1 h2).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ coverAcc_A
        isplitl [HS1]
        · unfold owns; iexists _; isplitr
          swap; · iexact HS1
          ipureintro; exact View.read_writes_of_cover _ _ _ _ _ coverDiag_A
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rA m c t h1 h2).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    isplitl [HS2]; · iexact HS2
    iintro ⟨H0, H1, H2, H3, H4, H5, H6, H7, H8, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ coverAcc_A
        isplitl [HS1]
        · unfold owns; iexists _; isplitr
          swap; · iexact HS1
          ipureintro; exact View.read_writes_of_cover _ _ _ _ _ coverDiag_A
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

set_option maxHeartbeats 4000000 in
theorem sound_B (c : Dev nD) (t : Fin cfg0.N) (h1 : cond1 (grid0.coords t)) (h2 : ¬cond2 (grid0.coords t)) :
    bodyPre m c t ⊢ wp frame (wpE (defs₀ (F := F)) Variants.none c none) Set.univ (bodyAt0 t) (fun _ => bodyPost m c t) := by
  have h4 : ¬cond4 (grid0.coords t) := c1_not_c4 t h1
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_B m c t h1 h2]
  unfold tilesB; dsimp only
  have hz : t.val ≠ 0 := fun h => h2 (c1_zero t h).2
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rB m c t h1 h2 (prevDiag m c t)).2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexact HS1
  isplitl [HS2]; · iexact HS2
  iintro ⟨H0, H1, H2, H3, H4, H5, H6, H7, H8, ⟨%es0, HS0⟩, HS1, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_B
      isplitl [HS1]; · iexact HS1
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem sound_C (c : Dev nD) (t : Fin cfg0.N) (h1 : ¬cond1 (grid0.coords t)) (h2 : cond2 (grid0.coords t)) (h4 : ¬cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_C m c t h1 h2 h4]
  unfold tilesC; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rC m c t h1 h2 h4 (prevAcc m c t)).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexists _; iexact HS1
  isplitl [HS2]; · iexact HS2
  iintro ⟨H0, H1, H2, H3, H4, H5, H6, H7, H8, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_C
      isplitl [HS1]
      · unfold owns; iexists _; isplitr
        swap; · iexact HS1
        ipureintro; exact View.read_writes_of_cover _ _ _ _ _ coverDiag_C
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem sound_D (c : Dev nD) (t : Fin cfg0.N) (h1 : ¬cond1 (grid0.coords t)) (h2 : ¬cond2 (grid0.coords t)) (h4 : ¬cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_D m c t h1 h2 h4]
  unfold tilesD; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rD m c t h1 h2 h4 (prevAcc m c t) (prevDiag m c t)).2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, ⟨%es0, HS0⟩, HS1, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_D
      isplitl [HS1]; · iexact HS1
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem sound_E (c : Dev nD) (t : Fin cfg0.N) (h1 : ¬cond1 (grid0.coords t)) (h2 : cond2 (grid0.coords t)) (h4 : cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [leavesOut6 m c t h4, leavesOut7 m c t h4, leavesOut8 m c t h4]
  rw [outsAt_E m c t h1 h2 h4]
  unfold tilesE; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rE m c t h1 h2 h4 (prevAcc m c t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexists _; iexact HS1
  isplitl [HS2]; · iexact HS2
  iintro ⟨H0, H1, H2, H3, H4, H5, ⟨%e6, H6⟩, ⟨%e7, H7⟩, ⟨%e8, H8⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_E
      isplitl [HS1]
      · unfold owns; iexists _; isplitr
        swap; · iexact HS1
        ipureintro; exact View.read_writes_of_cover _ _ _ _ _ coverDiag_E
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ cover6_E
  isplitl [H7]
  · unfold owns; iexists _; isplitr
    swap; · iexact H7
    ipureintro; exact View.read_writes_of_cover _ _ _ _ _ cover7_E
  unfold owns; iexists _; isplitr
  swap; · iexact H8
  ipureintro; exact View.read_writes_of_cover _ _ _ _ _ cover8_E

set_option maxHeartbeats 4000000 in
theorem sound_F (c : Dev nD) (t : Fin cfg0.N) (h1 : ¬cond1 (grid0.coords t)) (h2 : ¬cond2 (grid0.coords t)) (h4 : cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [leavesOut6 m c t h4, leavesOut7 m c t h4, leavesOut8 m c t h4]
  rw [outsAt_F m c t h1 h2 h4]
  unfold tilesF; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rF m c t h1 h2 h4 (prevAcc m c t) (prevDiag m c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%es0, HS0⟩, HS1, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_F
      isplitl [HS1]; · iexact HS1
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ cover6_F
  isplitl [H7]
  · unfold owns; iexists _; isplitr
    swap; · iexact H7
    ipureintro; exact View.read_writes_of_cover _ _ _ _ _ cover7_F
  unfold owns; iexists _; isplitr
  swap; · iexact H8
  ipureintro; exact View.read_writes_of_cover _ _ _ _ _ cover8_F

/-- The body at any point: the tests select the case. -/
theorem sound_body (c : Dev nD) (t : Fin cfg0.N) :
    bodyPre m c t ⊢ wp frame (wpE (defs₀ (F := F)) Variants.none c none) Set.univ (bodyAt0 t) (fun _ => bodyPost m c t) := by
  by_cases h1 : cond1 (grid0.coords t)
  · by_cases h2 : cond2 (grid0.coords t)
    · exact sound_A m c t h1 h2
    · exact sound_B m c t h1 h2
  · by_cases h4 : cond4 (grid0.coords t)
    · by_cases h2 : cond2 (grid0.coords t)
      · exact sound_E m c t h1 h2 h4
      · exact sound_F m c t h1 h2 h4
    · by_cases h2 : cond2 (grid0.coords t)
      · exact sound_C m c t h1 h2 h4
      · exact sound_D m c t h1 h2 h4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: what the scratch tiles hold is
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, with every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Common.lean ====
/-
  The grid of the fused step is (i, j, k) = (row tile of 1024, column tile of 512, contraction tile of 512), walked with k
  fastest. What the body does at a point depends on four tests of (j, k) only:
    * k = 0      : the accumulator tile is reset to zero before anything is added to it;
    * k = j      : the contraction tile of the recurrent weights sits on the matrix diagonal — its own diagonal is
                   masked out, and the spike tile of that point, which is the (i, j) tile, is kept for the reset term;
    * k ≠ j      : the recurrent weight tile is used as it is;
    * k = 7      : the last contraction step — the three results of the (i, j) tile are computed from the accumulator
                   and stored; at every other point the three output windows are left alone and are not written back.
  This module states those tests as the body computes them, decides over the 256 points which combinations occur and
  where the output windows are idle, and names the staging and scratch memrefs a point runs on.
-/
import proofs.«142747_j87522843560962_2_alg».proof.Proof.Gen.KernelIdeal.Frame
import proofs.«142747_j87522843560962_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four tests, as the body computes them from the coordinates -/

/-- k = 0 (the contraction's first step). -/
abbrev cond1 (i : grid0.Coords) : Prop :=
  Scalar.cmpi .ne (Scalar.extui (Scalar.cmpi .eq (BitVec.ofNat 32 (i 2).val) 0#32)) 0#32 = 1#1
/-- k = j (the contraction tile lies on the diagonal of the recurrent weights). -/
abbrev cond2 (i : grid0.Coords) : Prop :=
  Scalar.cmpi .ne (Scalar.extui (Scalar.cmpi .eq (BitVec.ofNat 32 (i 2).val) (BitVec.ofNat 32 (i 1).val))) 0#32 = 1#1
/-- k ≠ j, computed as the negation of the bit of k = j. -/
abbrev cond3 (i : grid0.Coords) : Prop :=
  Scalar.cmpi .ne (Scalar.extui (Scalar.xori (Scalar.cmpi .eq (BitVec.ofNat 32 (i 2).val) (BitVec.ofNat 32 (i 1).val)) 1#1)) 0#32 = 1#1
/-- k = 7 (the contraction's last step). -/
abbrev cond4 (i : grid0.Coords) : Prop := k0_cond4 i = 1#1

/-- The third test is the negation of the second, at every point. -/
theorem c3_iff : ∀ t : Fin cfg0.N, cond3 (grid0.coords t) ↔ ¬cond2 (grid0.coords t) :=
  (by decide +kernel : ∀ t : Fin grid0.N, cond3 (grid0.coords t) ↔ ¬cond2 (grid0.coords t))
/-- The first and the last step of the contraction are different points. -/
theorem c1_not_c4 : ∀ t : Fin cfg0.N, cond1 (grid0.coords t) → ¬cond4 (grid0.coords t) :=
  (by decide +kernel : ∀ t : Fin grid0.N, cond1 (grid0.coords t) → ¬cond4 (grid0.coords t))
/-- The first point of all is a first step on the diagonal (i = j = k = 0). -/
theorem c1_zero : ∀ t : Fin cfg0.N, t.val = 0 → cond1 (grid0.coords t) ∧ cond2 (grid0.coords t) :=
  (by decide +kernel : ∀ t : Fin grid0.N, t.val = 0 → cond1 (grid0.coords t) ∧ cond2 (grid0.coords t))

/-! ## Where the windows are idle and where they are written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Before the last contraction step the three output windows are idle and are not written back. -/
theorem idleAt6 : ∀ t : Fin cfg0.N, ¬cond4 (grid0.coords t) → cfg0.idle 6 (grid0.coords t) = true := by decide +kernel
theorem idleAt7 : ∀ t : Fin cfg0.N, ¬cond4 (grid0.coords t) → cfg0.idle 7 (grid0.coords t) = true := by decide +kernel
theorem idleAt8 : ∀ t : Fin cfg0.N, ¬cond4 (grid0.coords t) → cfg0.idle 8 (grid0.coords t) = true := by decide +kernel
theorem noFlush6 : ∀ t : Fin cfg0.N, ¬cond4 (grid0.coords t) → (cfg0.win 6).flush t = false := by decide +kernel
theorem noFlush7 : ∀ t : Fin cfg0.N, ¬cond4 (grid0.coords t) → (cfg0.win 7).flush t = false := by decide +kernel
theorem noFlush8 : ∀ t : Fin cfg0.N, ¬cond4 (grid0.coords t) → (cfg0.win 8).flush t = false := by decide +kernel
/-- At the last contraction step they are stored into. -/
theorem liveAt6 : ∀ t : Fin cfg0.N, cond4 (grid0.coords t) → cfg0.idle 6 (grid0.coords t) = false := by decide +kernel
theorem liveAt7 : ∀ t : Fin cfg0.N, cond4 (grid0.coords t) → cfg0.idle 7 (grid0.coords t) = false := by decide +kernel
theorem liveAt8 : ∀ t : Fin cfg0.N, cond4 (grid0.coords t) → cfg0.idle 8 (grid0.coords t) = false := by decide +kernel

/-! ## The memrefs a point runs on -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .i32 := win0_8.stage (cfg0.slots t 8)
abbrev hs8 (t : Fin cfg0.N) : (ms8 t).IsWhole := hstage0_8 ((cfg0.slots t 8).cast nbuf0_8)
/-- The three scratch tiles: the accumulator, the kept spike tile, the recurrent weight tile as multiplied. -/
abbrev scAcc : Memref sig .tc .vmem S1024x512 .f32 := Memref.whole cc0_scratch0
abbrev scDiag : Memref sig .tc .vmem S1024x512 .bf16 := Memref.whole cc0_scratch1
abbrev scW : Memref sig .tc .vmem S512x512 .bf16 := Memref.whole cc0_scratch2
/-- One staging buffer per output window and the scratch tiles as views: contents are stated through them. -/
abbrev VO6 : View sig .tc .vmem S1024x512 .f32 := (Memref.whole cc0_stg6_0 : Memref sig .tc .vmem S1024x512 .f32).view
abbrev VO7 : View sig .tc .vmem S1024x512 .f32 := (Memref.whole cc0_stg7_0 : Memref sig .tc .vmem S1024x512 .f32).view
abbrev VO8 : View sig .tc .vmem S1024x512 .i32 := (Memref.whole cc0_stg8_0 : Memref sig .tc .vmem S1024x512 .i32).view
abbrev VAcc : View sig .tc .vmem S1024x512 .f32 := scAcc.view
abbrev VDiag : View sig .tc .vmem S1024x512 .bf16 := scDiag.view

/-- What the launch hands the body beside the windows: the three scratch tiles at some contents and the generator
    register at some state. -/
theorem PhiA_eq (c : Dev nD) :
    (Pipeline.ΦA spec0 c : sProp 𝕄)
      = iprop(iprop((∃ d, owns (c : Thread nD τ) scAcc fullShare d) ∗ (∃ d, owns (c : Thread nD τ) scDiag fullShare d)
          ∗ (∃ d, owns (c : Thread nD τ) scW fullShare d)) ∗ (∃ r, prngReg c r)) := by
  unfold Pipeline.ΦA; rw [scopedRest0_eq]; simp only [scAcc, scDiag, scW, owns_whole]; try rfl

end Cert.KernelIdeal.Body

end
-- ==== Proof.KI.RunA.lean ====
/- The body at a first contraction step on the diagonal (k = 0 = j): the accumulator tile is reset, the spike tile is kept, the recurrent weight tile is masked.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : cond1 i) (hc2 : cond2 i) (hc3 : ¬cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) :
    Σ' (LS0 : List (View.Piece (Elt F) S1024x512 .f32)) (LS1 : List (View.Piece (Elt F) S1024x512 .bf16)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.KernelIdeal.Body

end
-- ==== Proof.KI.RunB.lean ====
/- The body at a first contraction step off the diagonal (k = 0 ≠ j): the accumulator tile is reset, the recurrent weight tile is taken as it is.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : cond1 i) (hc2 : ¬cond2 i) (hc3 : cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs1 : Vec F S1024x512 .bf16) :
    Σ' (LS0 : List (View.Piece (Elt F) S1024x512 .f32)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ (∃ d, owns (c : Thread nD τ) arg12 fullShare d)
            ∗ owns (c : Thread nD τ) arg13 fullShare xs1
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ owns (c : Thread nD τ) arg13 fullShare xs1
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%fs1, %hfs1, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs1
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]
    · iexists _; isplitr; · ipureintro; exact harg13.read_unread _
      iexact HS1
    iexists _; iexact HS2

end Cert.KernelIdeal.Body

end
-- ==== Proof.KI.RunC.lean ====
/- The body at an inner contraction step on the diagonal (0 < k = j < 7): the spike tile is kept, the recurrent weight tile is masked.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : cond2 i) (hc3 : ¬cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) :
    Σ' (LS0 : List (View.Piece (Elt F) S1024x512 .f32)) (LS1 : List (View.Piece (Elt F) S1024x512 .bf16)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ owns (c : Thread nD τ) arg12 fullShare xs0
            ∗ (∃ d, owns (c : Thread nD τ) arg13 fullShare d)
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    iexists _; iexact HS2

end Cert.KernelIdeal.Body

end
-- ==== Proof.KI.RunD.lean ====
/- The body at an inner contraction step off the diagonal (0 < k < 7, k ≠ j): two products are added to the accumulator tile and nothing else changes.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runD (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : ¬cond2 i) (hc3 : cond3 i) (hc4 : ¬cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) (xs1 : Vec F S1024x512 .bf16) :
    Σ' (LS0 : List (View.Piece (Elt F) S1024x512 .f32)), { LS2 : List (View.Piece (Elt F) S512x512 .bf16) //
      ∀ (xi6 xi7 : Vec F S1024x512 .f32) (xi8 : Vec F S1024x512 .i32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare xi6
            ∗ owns (c : Thread nD τ) arg10 fullShare xi7
            ∗ owns (c : Thread nD τ) arg11 fullShare xi8
            ∗ owns (c : Thread nD τ) arg12 fullShare xs0
            ∗ owns (c : Thread nD τ) arg13 fullShare xs1
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare xi6
                ∗ owns (c : Thread nD τ) arg10 fullShare xi7
                ∗ owns (c : Thread nD τ) arg11 fullShare xi8
                ∗ (∃ f, arg12.view.loc (c : Thread nD τ) ↦[arg12.view.set]{fullShare} arg12.view.writes (Elt F) f LS0)
                ∗ owns (c : Thread nD τ) arg13 fullShare xs1
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun xi6 xi7 xi8 E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]
    · iexists _; isplitr; · ipureintro; exact harg13.read_unread _
      iexact HS1
    iexists _; iexact HS2

end Cert.KernelIdeal.Body

end
-- ==== Proof.KI.RunE.lean ====
/- The body at the last contraction step on the diagonal (k = 7 = j): the spike tile is kept at this very point, and the three results are stored.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KI.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runE (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : cond2 i) (hc3 : ¬cond3 i) (hc4 : cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) :
    Σ' (L6 : List (View.Piece (Elt F) S1024x512 .f32)) (L7 : List (View.Piece (Elt F) S1024x512 .f32)) (L8 : List (View.Piece (Elt F) S1024x512 .i32)) (LS0 : List (View.Piece (Elt F) S1024x512 .f32)) (LS1 : List (View.Piece (Elt F) S1024x512 .bf16)), { LS2 : List (View.Piece (Elt F) S512x512 .bf16) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xs0
            ∗ (∃ d, owns (c : Thread nD τ) arg13 fullShare d)
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.KernelIdeal.Body

end
-- ==== Proof.KI.RunF.lean ====
/- The body at the last contraction step off the diagonal (k = 7 ≠ j): the three results are stored, with the spike tile kept at the earlier point k = j.
  The statement: on whole staging memrefs holding the six input tiles, the output tiles and the scratch tiles as the
  point finds them, the body runs to the end; it gives the input tiles back as they were, leaves in every tile it stores
  into the stored pieces (found when the tile is handed to the continuation), and hands every tile it does not touch
  back untouched.
-/
import proofs.«142747_j87522843560962_2_alg».proof.Proof.KI.RunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runF (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .i32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .i32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S512x512 .bf16) (harg14 : arg14.IsWhole)
    (hc1 : ¬cond1 i) (hc2 : ¬cond2 i) (hc3 : cond3 i) (hc4 : cond4 i)
    (x0 : Vec F S1024x512 .bf16) (x1 : Vec F S512x512 .bf16) (x2 : Vec F S1024x512 .bf16) (x3 : Vec F S512x512 .bf16) (x4 : Vec F S1024x512 .f32) (x5 : Vec F S1024x512 .i32) (xs0 : Vec F S1024x512 .f32) (xs1 : Vec F S1024x512 .bf16) :
    Σ' (L6 : List (View.Piece (Elt F) S1024x512 .f32)) (L7 : List (View.Piece (Elt F) S1024x512 .f32)) (L8 : List (View.Piece (Elt F) S1024x512 .i32)) (LS0 : List (View.Piece (Elt F) S1024x512 .f32)), { LS2 : List (View.Piece (Elt F) S512x512 .bf16) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xs0
            ∗ owns (c : Thread nD τ) arg13 fullShare xs1
            ∗ (∃ d, owns (c : Thread nD τ) arg14 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS0)
                ∗ owns (c : Thread nD τ) arg13 fullShare xs1
                ∗ (∃ f, arg14.view.loc (c : Thread nD τ) ↦[arg14.view.set]{fullShare} arg14.view.writes (Elt F) f LS2)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]; · iexists _; iexact HS0
    isplitl [HS1]
    · iexists _; isplitr; · ipureintro; exact harg13.read_unread _
      iexact HS1
    iexists _; iexact HS2

end Cert.KernelIdeal.Body

end
-- ==== Proof.KI.Acc.lean ====
/-
  What the grid carries from point to point. Two scratch tiles outlive a point: the accumulator tile, which over the
  eight contraction steps k = 0..7 of one (i, j) collects the products of the input tiles with the input weight tiles and
  of the spike tiles with the recurrent weight tiles; and the kept spike tile, stored at the step k = j and read at
  k = 7. This module names what the five tiles — the three results, the accumulator, the kept spikes — hold after every
  point, by recursion along the walk of the grid: at each point the case the four tests select, run on the point's input
  tiles and on what the point before left. That is the proof data of the pipeline; the body meets its obligation
  at every point by the run of the point's case, and the launch theorem for a tracked scratch gives the run of the whole
  program, hence the frame.
-/
import proofs.«142747_j87522843560962_2_alg».proof.Proof.KI.RunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stored pieces read back, and that they cover their tiles -/

/-- The five tiles: the membrane potential, the spikes and the refractory counters of the (i, j) tile; the accumulator; the
    kept spike tile. -/
abbrev Tiles (F : FTy → Type) [FloatOps F] : Type :=
  Vec F S1024x512 .f32 × Vec F S1024x512 .f32 × Vec F S1024x512 .i32 × Vec F S1024x512 .f32 × Vec F S1024x512 .bf16

abbrev rd6 (L : List (View.Piece (Elt F) S1024x512 .f32)) : Vec F S1024x512 .f32 := VO6.read (Elt F) (VO6.writes (Elt F) VO6.junk L)
abbrev rd7 (L : List (View.Piece (Elt F) S1024x512 .f32)) : Vec F S1024x512 .f32 := VO7.read (Elt F) (VO7.writes (Elt F) VO7.junk L)
abbrev rd8 (L : List (View.Piece (Elt F) S1024x512 .i32)) : Vec F S1024x512 .i32 := VO8.read (Elt F) (VO8.writes (Elt F) VO8.junk L)
abbrev rdAcc (L : List (View.Piece (Elt F) S1024x512 .f32)) : Vec F S1024x512 .f32 := VAcc.read (Elt F) (VAcc.writes (Elt F) VAcc.junk L)
abbrev rdDiag (L : List (View.Piece (Elt F) S1024x512 .bf16)) : Vec F S1024x512 .bf16 := VDiag.read (Elt F) (VDiag.writes (Elt F) VDiag.junk L)

section Covers
variable {c : Dev nD} {i : grid0.Coords} {arg3 : Memref sig .tc .vmem S1024x512 .bf16} {harg3 : arg3.IsWhole} {arg4 : Memref sig .tc .vmem S512x512 .bf16} {harg4 : arg4.IsWhole} {arg5 : Memref sig .tc .vmem S1024x512 .bf16} {harg5 : arg5.IsWhole} {arg6 : Memref sig .tc .vmem S512x512 .bf16} {harg6 : arg6.IsWhole} {arg7 : Memref sig .tc .vmem S1024x512 .f32} {harg7 : arg7.IsWhole} {arg8 : Memref sig .tc .vmem S1024x512 .i32} {harg8 : arg8.IsWhole} {arg9 : Memref sig .tc .vmem S1024x512 .f32} {harg9 : arg9.IsWhole} {arg10 : Memref sig .tc .vmem S1024x512 .f32} {harg10 : arg10.IsWhole} {arg11 : Memref sig .tc .vmem S1024x512 .i32} {harg11 : arg11.IsWhole} {arg12 : Memref sig .tc .vmem S1024x512 .f32} {harg12 : arg12.IsWhole} {arg13 : Memref sig .tc .vmem S1024x512 .bf16} {harg13 : arg13.IsWhole} {arg14 : Memref sig .tc .vmem S512x512 .bf16} {harg14 : arg14.IsWhole} {x0 : Vec F S1024x512 .bf16} {x1 : Vec F S512x512 .bf16} {x2 : Vec F S1024x512 .bf16} {x3 : Vec F S512x512 .bf16} {x4 : Vec F S1024x512 .f32} {x5 : Vec F S1024x512 .i32}

/- Every tile a case stores into it stores whole: the stored pieces tile it. -/
theorem coverAcc_A {hc1 : cond1 i} {hc2 : cond2 i} {hc3 : ¬cond3 i} {hc4 : ¬cond4 i} (y : S1024x512.Idx) :
    ∃ pc ∈ (runA c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5).1, y ∈ pc.1.set :=
  View.cover_of_tiledL _ S1024x512.size (by sl_kernel_rfl) y
theorem coverDiag_A {hc1 : cond1 i} {hc2 : cond2 i} {hc3 : ¬cond3 i} {hc4 : ¬cond4 i} (y : S1024x512.Idx) :
    ∃ pc ∈ (runA c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5).2.1, y ∈ pc.1.set :=
  View.cover_of_tiledL _ S1024x512.size (by sl_kernel_rfl) y
theorem coverAcc_B {hc1 : cond1 i} {hc2 : ¬cond2 i} {hc3 : cond3 i} {hc4 : ¬cond4 i} {xs1 : Vec F S1024x512 .bf16} (y : S1024x512.Idx) :
    ∃ pc ∈ (runB c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs1).1, y ∈ pc.1.set :=
  View.cover_of_tiledL _ S1024x512.size (by sl_kernel_rfl) y
theorem coverAcc_C {hc1 : ¬cond1 i} {hc2 : cond2 i} {hc3 : ¬cond3 i} {hc4 : ¬cond4 i} {xs0 : Vec F S1024x512 .f32} (y : S1024x512.Idx) :
    ∃ pc ∈ (runC c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).1, y ∈ pc.1.set :=
  View.cover_of_tiledL _ S1024x512.size (by sl_kernel_rfl) y
theorem coverDiag_C {hc1 : ¬cond1 i} {hc2 : cond2 i} {hc3 : ¬cond3 i} {hc4 : ¬cond4 i} {xs0 : Vec F S1024x512 .f32} (y : S1024x512.Idx) :
    ∃ pc ∈ (runC c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.1, y ∈ pc.1.set :=
  View.cover_of_tiledL _ S1024x512.size (by sl_kernel_rfl) y
theorem coverAcc_D {hc1 : ¬cond1 i} {hc2 : ¬cond2 i} {hc3 : cond3 i} {hc4 : ¬cond4 i} {xs0 : Vec F S1024x512 .f32} {xs1 : Vec F S1024x512 .bf16} (y : S1024x512.Idx) :
    ∃ pc ∈ (runD c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).1, y ∈ pc.1.set :=
  View.cover_of_tiledL _ S1024x512.size (by sl_kernel_rfl) y
theorem cover6_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).1, y ∈ pc.1.set :=
  View.cover_of_tiledL _ S1024x512.size (by sl_kernel_rfl) y
theorem cover7_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.1, y ∈ pc.1.set :=
  View.cover_of_tiledL _ S1024x512.size (by sl_kernel_rfl) y
theorem cover8_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.1, y ∈ pc.1.set :=
  View.cover_of_tiledL _ S1024x512.size (by sl_kernel_rfl) y
theorem coverAcc_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.2.1, y ∈ pc.1.set :=
  View.cover_of_tiledL _ S1024x512.size (by sl_kernel_rfl) y
theorem coverDiag_E {hc1 : ¬cond1 i} {hc2 : cond2 i} {hc3 : ¬cond3 i} {hc4 : cond4 i} {xs0 : Vec F S1024x512 .f32} (y : S1024x512.Idx) :
    ∃ pc ∈ (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.2.2.1, y ∈ pc.1.set :=
  View.cover_of_tiledL _ S1024x512.size (by sl_kernel_rfl) y
theorem cover6_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).1, y ∈ pc.1.set :=
  View.cover_of_tiledL _ S1024x512.size (by sl_kernel_rfl) y
theorem cover7_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.1, y ∈ pc.1.set :=
  View.cover_of_tiledL _ S1024x512.size (by sl_kernel_rfl) y
theorem cover8_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.2.1, y ∈ pc.1.set :=
  View.cover_of_tiledL _ S1024x512.size (by sl_kernel_rfl) y
theorem coverAcc_F {hc1 : ¬cond1 i} {hc2 : ¬cond2 i} {hc3 : cond3 i} {hc4 : cond4 i} {xs0 : Vec F S1024x512 .f32} {xs1 : Vec F S1024x512 .bf16} (y : S1024x512.Idx) :
    ∃ pc ∈ (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.2.2.1, y ∈ pc.1.set :=
  View.cover_of_tiledL _ S1024x512.size (by sl_kernel_rfl) y
end Covers

/-! ## The cases at a point of the grid -/

abbrev rA (c : Dev nD) (t : Fin cfg0.N) (h1 : cond1 (grid0.coords t)) (h2 : cond2 (grid0.coords t)) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 (fun h => (c3_iff t).mp h h2) (c1_not_c4 t h1) (iblk m c 0 t) (iblk m c 1 t) (iblk m c 2 t) (iblk m c 3 t) (iblk m c 4 t) (iblk m c 5 t)
abbrev rB (c : Dev nD) (t : Fin cfg0.N) (h1 : cond1 (grid0.coords t)) (h2 : ¬cond2 (grid0.coords t)) (xs1 : Vec F S1024x512 .bf16) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 ((c3_iff t).mpr h2) (c1_not_c4 t h1) (iblk m c 0 t) (iblk m c 1 t) (iblk m c 2 t) (iblk m c 3 t) (iblk m c 4 t) (iblk m c 5 t) xs1
abbrev rC (c : Dev nD) (t : Fin cfg0.N) (h1 : ¬cond1 (grid0.coords t)) (h2 : cond2 (grid0.coords t)) (h4 : ¬cond4 (grid0.coords t)) (xs0 : Vec F S1024x512 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 (fun h => (c3_iff t).mp h h2) h4 (iblk m c 0 t) (iblk m c 1 t) (iblk m c 2 t) (iblk m c 3 t) (iblk m c 4 t) (iblk m c 5 t) xs0
abbrev rD (c : Dev nD) (t : Fin cfg0.N) (h1 : ¬cond1 (grid0.coords t)) (h2 : ¬cond2 (grid0.coords t)) (h4 : ¬cond4 (grid0.coords t)) (xs0 : Vec F S1024x512 .f32) (xs1 : Vec F S1024x512 .bf16) :=
  runD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 ((c3_iff t).mpr h2) h4 (iblk m c 0 t) (iblk m c 1 t) (iblk m c 2 t) (iblk m c 3 t) (iblk m c 4 t) (iblk m c 5 t) xs0 xs1
abbrev rE (c : Dev nD) (t : Fin cfg0.N) (h1 : ¬cond1 (grid0.coords t)) (h2 : cond2 (grid0.coords t)) (h4 : cond4 (grid0.coords t)) (xs0 : Vec F S1024x512 .f32) :=
  runE (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 (fun h => (c3_iff t).mp h h2) h4 (iblk m c 0 t) (iblk m c 1 t) (iblk m c 2 t) (iblk m c 3 t) (iblk m c 4 t) (iblk m c 5 t) xs0
abbrev rF (c : Dev nD) (t : Fin cfg0.N) (h1 : ¬cond1 (grid0.coords t)) (h2 : ¬cond2 (grid0.coords t)) (h4 : cond4 (grid0.coords t)) (xs0 : Vec F S1024x512 .f32) (xs1 : Vec F S1024x512 .bf16) :=
  runF (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc (Memref.isWhole_whole _) scDiag (Memref.isWhole_whole _) scW (Memref.isWhole_whole _)
    h1 h2 ((c3_iff t).mpr h2) h4 (iblk m c 0 t) (iblk m c 1 t) (iblk m c 2 t) (iblk m c 3 t) (iblk m c 4 t) (iblk m c 5 t) xs0 xs1

/-- A first step on the diagonal: the accumulator and the kept spike tile are what the point stores. -/
def tilesA (c : Dev nD) (t : Fin cfg0.N) (h1 : cond1 (grid0.coords t)) (h2 : cond2 (grid0.coords t)) : Tiles F :=
  (rd6 (F := F) [], rd7 (F := F) [], rd8 (F := F) [], rdAcc (rA m c t h1 h2).1, rdDiag (rA m c t h1 h2).2.1)
/-- A first step off the diagonal: the kept spike tile is the one found. -/
def tilesB (c : Dev nD) (t : Fin cfg0.N) (h1 : cond1 (grid0.coords t)) (h2 : ¬cond2 (grid0.coords t)) (xs1 : Vec F S1024x512 .bf16) : Tiles F :=
  (rd6 (F := F) [], rd7 (F := F) [], rd8 (F := F) [], rdAcc (rB m c t h1 h2 xs1).1, xs1)
/-- An inner step on the diagonal. -/
def tilesC (c : Dev nD) (t : Fin cfg0.N) (h1 : ¬cond1 (grid0.coords t)) (h2 : cond2 (grid0.coords t)) (h4 : ¬cond4 (grid0.coords t)) (xs0 : Vec F S1024x512 .f32) : Tiles F :=
  (rd6 (F := F) [], rd7 (F := F) [], rd8 (F := F) [], rdAcc (rC m c t h1 h2 h4 xs0).1, rdDiag (rC m c t h1 h2 h4 xs0).2.1)
/-- An inner step off the diagonal. -/
def tilesD (c : Dev nD) (t : Fin cfg0.N) (h1 : ¬cond1 (grid0.coords t)) (h2 : ¬cond2 (grid0.coords t)) (h4 : ¬cond4 (grid0.coords t)) (xs0 : Vec F S1024x512 .f32) (xs1 : Vec F S1024x512 .bf16) : Tiles F :=
  (rd6 (F := F) [], rd7 (F := F) [], rd8 (F := F) [], rdAcc (rD m c t h1 h2 h4 xs0 xs1).1, xs1)
/-- The last step on the diagonal: all five tiles are stored. -/
def tilesE (c : Dev nD) (t : Fin cfg0.N) (h1 : ¬cond1 (grid0.coords t)) (h2 : cond2 (grid0.coords t)) (h4 : cond4 (grid0.coords t)) (xs0 : Vec F S1024x512 .f32) : Tiles F :=
  (rd6 (rE m c t h1 h2 h4 xs0).1, rd7 (rE m c t h1 h2 h4 xs0).2.1, rd8 (rE m c t h1 h2 h4 xs0).2.2.1,
    rdAcc (rE m c t h1 h2 h4 xs0).2.2.2.1, rdDiag (rE m c t h1 h2 h4 xs0).2.2.2.2.1)
/-- The last step off the diagonal. -/
def tilesF (c : Dev nD) (t : Fin cfg0.N) (h1 : ¬cond1 (grid0.coords t)) (h2 : ¬cond2 (grid0.coords t)) (h4 : cond4 (grid0.coords t)) (xs0 : Vec F S1024x512 .f32) (xs1 : Vec F S1024x512 .bf16) : Tiles F :=
  (rd6 (rF m c t h1 h2 h4 xs0 xs1).1, rd7 (rF m c t h1 h2 h4 xs0 xs1).2.1, rd8 (rF m c t h1 h2 h4 xs0 xs1).2.2.1,
    rdAcc (rF m c t h1 h2 h4 xs0 xs1).2.2.2.1, xs1)

/-! ## The tiles after each point -/

/-- THE ACCUMULATION: what the five tiles hold after the body at position `n` of the walk — the case the tests select
    there, on the accumulator and the kept spike tile the position before left. -/
def outsAt (c : Dev nD) : (n : ℕ) → n < cfg0.N → Tiles F
  | 0, hn => tilesA m c ⟨0, hn⟩ (c1_zero ⟨0, hn⟩ rfl).1 (c1_zero ⟨0, hn⟩ rfl).2
  | n + 1, hn =>
    if h1 : cond1 (grid0.coords ⟨n + 1, hn⟩) then
      if h2 : cond2 (grid0.coords ⟨n + 1, hn⟩) then tilesA m c ⟨n + 1, hn⟩ h1 h2
      else tilesB m c ⟨n + 1, hn⟩ h1 h2 (outsAt c n (Nat.lt_of_succ_lt hn)).2.2.2.2
    else if h4 : cond4 (grid0.coords ⟨n + 1, hn⟩) then
      if h2 : cond2 (grid0.coords ⟨n + 1, hn⟩) then tilesE m c ⟨n + 1, hn⟩ h1 h2 h4 (outsAt c n (Nat.lt_of_succ_lt hn)).2.2.2.1
      else tilesF m c ⟨n + 1, hn⟩ h1 h2 h4 (outsAt c n (Nat.lt_of_succ_lt hn)).2.2.2.1 (outsAt c n (Nat.lt_of_succ_lt hn)).2.2.2.2
    else
      if h2 : cond2 (grid0.coords ⟨n + 1, hn⟩) then tilesC m c ⟨n + 1, hn⟩ h1 h2 h4 (outsAt c n (Nat.lt_of_succ_lt hn)).2.2.2.1
      else tilesD m c ⟨n + 1, hn⟩ h1 h2 h4 (outsAt c n (Nat.lt_of_succ_lt hn)).2.2.2.1 (outsAt c n (Nat.lt_of_succ_lt hn)).2.2.2.2

/-- The accumulator and the kept spike tile as the point `t` finds them (what the point before left). -/
abbrev prevAcc (c : Dev nD) (t : Fin cfg0.N) : Vec F S1024x512 .f32 :=
  (outsAt m c (t.val - 1) (Nat.lt_of_le_of_lt (Nat.sub_le _ _) t.isLt)).2.2.2.1
abbrev prevDiag (c : Dev nD) (t : Fin cfg0.N) : Vec F S1024x512 .bf16 :=
  (outsAt m c (t.val - 1) (Nat.lt_of_le_of_lt (Nat.sub_le _ _) t.isLt)).2.2.2.2

theorem outsAt_A (c : Dev nD) (t : Fin cfg0.N) (h1 : cond1 (grid0.coords t)) (h2 : cond2 (grid0.coords t)) : outsAt m c t.val t.isLt = tilesA m c t h1 h2 := by
  obtain ⟨n, hn⟩ := t
  cases n with
  | zero => exact rfl
  | succ n => exact (dif_pos h1).trans ((dif_pos h2).trans rfl)
theorem outsAt_B (c : Dev nD) (t : Fin cfg0.N) (h1 : cond1 (grid0.coords t)) (h2 : ¬cond2 (grid0.coords t)) : outsAt m c t.val t.isLt = tilesB m c t h1 h2 (prevDiag m c t) := by
  obtain ⟨n, hn⟩ := t
  cases n with
  | zero => exact absurd (c1_zero ⟨0, hn⟩ rfl).2 h2
  | succ n => exact (dif_pos h1).trans ((dif_neg h2).trans rfl)
theorem outsAt_C (c : Dev nD) (t : Fin cfg0.N) (h1 : ¬cond1 (grid0.coords t)) (h2 : cond2 (grid0.coords t)) (h4 : ¬cond4 (grid0.coords t)) : outsAt m c t.val t.isLt = tilesC m c t h1 h2 h4 (prevAcc m c t) := by
  obtain ⟨n, hn⟩ := t
  cases n with
  | zero => exact absurd (c1_zero ⟨0, hn⟩ rfl).1 h1
  | succ n => exact (dif_neg h1).trans ((dif_neg h4).trans ((dif_pos h2).trans rfl))
theorem outsAt_D (c : Dev nD) (t : Fin cfg0.N) (h1 : ¬cond1 (grid0.coords t)) (h2 : ¬cond2 (grid0.coords t)) (h4 : ¬cond4 (grid0.coords t)) : outsAt m c t.val t.isLt = tilesD m c t h1 h2 h4 (prevAcc m c t) (prevDiag m c t) := by
  obtain ⟨n, hn⟩ := t
  cases n with
  | zero => exact absurd (c1_zero ⟨0, hn⟩ rfl).1 h1
  | succ n => exact (dif_neg h1).trans ((dif_neg h4).trans ((dif_neg h2).trans rfl))
theorem outsAt_E (c : Dev nD) (t : Fin cfg0.N) (h1 : ¬cond1 (grid0.coords t)) (h2 : cond2 (grid0.coords t)) (h4 : cond4 (grid0.coords t)) : outsAt m c t.val t.isLt = tilesE m c t h1 h2 h4 (prevAcc m c t) := by
  obtain ⟨n, hn⟩ := t
  cases n with
  | zero => exact absurd (c1_zero ⟨0, hn⟩ rfl).1 h1
  | succ n => exact (dif_neg h1).trans ((dif_pos h4).trans ((dif_pos h2).trans rfl))
theorem outsAt_F (c : Dev nD) (t : Fin cfg0.N) (h1 : ¬cond1 (grid0.coords t)) (h2 : ¬cond2 (grid0.coords t)) (h4 : cond4 (grid0.coords t)) : outsAt m c t.val t.isLt = tilesF m c t h1 h2 h4 (prevAcc m c t) (prevDiag m c t) := by
  obtain ⟨n, hn⟩ := t
  cases n with
  | zero => exact absurd (c1_zero ⟨0, hn⟩ rfl).1 h1
  | succ n => exact (dif_neg h1).trans ((dif_pos h4).trans ((dif_neg h2).trans rfl))

/-! ## The invariant between points -/

/-- Before position `n`: at the start what the launch hands over (every scratch tile at anything); afterwards the
    accumulator and the kept spike tile at what the position before left, the recurrent weight tile at anything. -/
def PhiS (c : Dev nD) : (n : ℕ) → n ≤ cfg0.N → sProp 𝕄
  | 0, _ => Pipeline.ΦA spec0 c
  | n + 1, hn => iprop(iprop(owns (c : Thread nD τ) scAcc fullShare (outsAt m c n hn).2.2.2.1 ∗ owns (c : Thread nD τ) scDiag fullShare (outsAt m c n hn).2.2.2.2
      ∗ (∃ d, owns (c : Thread nD τ) scW fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare (outsAt m c n hn).2.2.2.1 ∗ owns (c : Thread nD τ) scDiag fullShare (outsAt m c n hn).2.2.2.2
      ∗ (∃ d, owns (c : Thread nD τ) scW fullShare d)) ∗ (∃ r, prngReg c r)) := rfl
theorem PhiS_pos (c : Dev nD) (n : ℕ) (h : n ≤ cfg0.N) (hz : n ≠ 0) :
    PhiS m c n h = iprop(iprop(owns (c : Thread nD τ) scAcc fullShare (outsAt m c (n - 1) (by omega)).2.2.2.1 ∗ owns (c : Thread nD τ) scDiag fullShare (outsAt m c (n - 1) (by omega)).2.2.2.2
      ∗ (∃ d, owns (c : Thread nD τ) scW fullShare d)) ∗ (∃ r, prngReg c r)) := by
  cases n with
  | zero => exact absurd rfl hz
  | succ n => rfl

/-! ## The proof data of the pipeline -/

/-- On core `c`: the arrays as the region finds them; after the body at point `t` each input's buffer at its block and the three
    results' buffers at the accumulation's tiles; the invariant above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2.1 := by dsimp only [dats]
theorem after8 (c : Dev nD) (t : Fin cfg0.N) : (dats m 0 c).after 8 t = (outsAt m c t.val t.isLt).2.2.1 := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-- What the obligation asks of an input's buffer after the body: its block, still. -/
theorem leavesIn0 (c : Dev nD) (t : Fin cfg0.N) : (dats m 0 c).leavesExact 0 t = owns (c : Thread nD τ) (ms0 t) fullShare (iblk m c 0 t) := by
  unfold Dat.leavesExact; rw [liveAt0 t, after0]
theorem leavesIn1 (c : Dev nD) (t : Fin cfg0.N) : (dats m 0 c).leavesExact 1 t = owns (c : Thread nD τ) (ms1 t) fullShare (iblk m c 1 t) := by
  unfold Dat.leavesExact; rw [liveAt1 t, after1]
theorem leavesIn2 (c : Dev nD) (t : Fin cfg0.N) : (dats m 0 c).leavesExact 2 t = owns (c : Thread nD τ) (ms2 t) fullShare (iblk m c 2 t) := by
  unfold Dat.leavesExact; rw [liveAt2 t, after2]
theorem leavesIn3 (c : Dev nD) (t : Fin cfg0.N) : (dats m 0 c).leavesExact 3 t = owns (c : Thread nD τ) (ms3 t) fullShare (iblk m c 3 t) := by
  unfold Dat.leavesExact; rw [liveAt3 t, after3]
theorem leavesIn4 (c : Dev nD) (t : Fin cfg0.N) : (dats m 0 c).leavesExact 4 t = owns (c : Thread nD τ) (ms4 t) fullShare (iblk m c 4 t) := by
  unfold Dat.leavesExact; rw [liveAt4 t, after4]
theorem leavesIn5 (c : Dev nD) (t : Fin cfg0.N) : (dats m 0 c).leavesExact 5 t = owns (c : Thread nD τ) (ms5 t) fullShare (iblk m c 5 t) := by
  unfold Dat.leavesExact; rw [liveAt5 t, after5]
/-- And of a result's buffer at a last contraction step: the accumulation's tile. -/
theorem leavesOut6 (c : Dev nD) (t : Fin cfg0.N) (h4 : cond4 (grid0.coords t)) : (dats m 0 c).leavesExact 6 t = owns (c : Thread nD τ) (ms6 t) fullShare (outsAt m c t.val t.isLt).1 := by
  unfold Dat.leavesExact; rw [liveAt6 t h4, after6]
theorem leavesOut7 (c : Dev nD) (t : Fin cfg0.N) (h4 : cond4 (grid0.coords t)) : (dats m 0 c).leavesExact 7 t = owns (c : Thread nD τ) (ms7 t) fullShare (outsAt m c t.val t.isLt).2.1 := by
  unfold Dat.leavesExact; rw [liveAt7 t h4, after7]
theorem leavesOut8 (c : Dev nD) (t : Fin cfg0.N) (h4 : cond4 (grid0.coords t)) : (dats m 0 c).leavesExact 8 t = owns (c : Thread nD τ) (ms8 t) fullShare (outsAt m c t.val t.isLt).2.2.1 := by
  unfold Dat.leavesExact; rw [liveAt8 t h4, after8]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/- One lemma per case: the inputs' buffers hold their blocks; the invariant hands the body the scratch tiles (at anything before
   the first point, at what the point before left afterwards); the case's run applies; each stored tile is taken back at its
   pieces read back (they cover it), the untouched ones as they were. -/
set_option maxHeartbeats 4000000 in
theorem sound_A (c : Dev nD) (t : Fin cfg0.N) (h1 : cond1 (grid0.coords t)) (h2 : cond2 (grid0.coords t)) :
    bodyPre m c t ⊢ wp frame (wpE (defs₀ (F := F)) Variants.none c none) Set.univ (bodyAt0 t) (fun _ => bodyPost m c t) := by
  have h4 : ¬cond4 (grid0.coords t) := c1_not_c4 t h1
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_A m c t h1 h2]
  unfold tilesA; dsimp only
  by_cases hz : t.val = 0
  · rw [PhiS_castSucc m c t, PhiS_zero m c _ _ hz, PhiA_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rA m c t h1 h2).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ coverAcc_A
        isplitl [HS1]
        · unfold owns; iexists _; isplitr
          swap; · iexact HS1
          ipureintro; exact View.read_writes_of_cover _ _ _ _ _ coverDiag_A
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rA m c t h1 h2).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    isplitl [HS2]; · iexact HS2
    iintro ⟨H0, H1, H2, H3, H4, H5, H6, H7, H8, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ coverAcc_A
        isplitl [HS1]
        · unfold owns; iexists _; isplitr
          swap; · iexact HS1
          ipureintro; exact View.read_writes_of_cover _ _ _ _ _ coverDiag_A
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

set_option maxHeartbeats 4000000 in
theorem sound_B (c : Dev nD) (t : Fin cfg0.N) (h1 : cond1 (grid0.coords t)) (h2 : ¬cond2 (grid0.coords t)) :
    bodyPre m c t ⊢ wp frame (wpE (defs₀ (F := F)) Variants.none c none) Set.univ (bodyAt0 t) (fun _ => bodyPost m c t) := by
  have h4 : ¬cond4 (grid0.coords t) := c1_not_c4 t h1
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_B m c t h1 h2]
  unfold tilesB; dsimp only
  have hz : t.val ≠ 0 := fun h => h2 (c1_zero t h).2
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rB m c t h1 h2 (prevDiag m c t)).2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexact HS1
  isplitl [HS2]; · iexact HS2
  iintro ⟨H0, H1, H2, H3, H4, H5, H6, H7, H8, ⟨%es0, HS0⟩, HS1, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_B
      isplitl [HS1]; · iexact HS1
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem sound_C (c : Dev nD) (t : Fin cfg0.N) (h1 : ¬cond1 (grid0.coords t)) (h2 : cond2 (grid0.coords t)) (h4 : ¬cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_C m c t h1 h2 h4]
  unfold tilesC; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rC m c t h1 h2 h4 (prevAcc m c t)).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexists _; iexact HS1
  isplitl [HS2]; · iexact HS2
  iintro ⟨H0, H1, H2, H3, H4, H5, H6, H7, H8, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_C
      isplitl [HS1]
      · unfold owns; iexists _; isplitr
        swap; · iexact HS1
        ipureintro; exact View.read_writes_of_cover _ _ _ _ _ coverDiag_C
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem sound_D (c : Dev nD) (t : Fin cfg0.N) (h1 : ¬cond1 (grid0.coords t)) (h2 : ¬cond2 (grid0.coords t)) (h4 : ¬cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [Dat.leavesExact_idle (dats m 0 c) 6 t (idleAt6 t h4) (noFlush6 t h4), Dat.leavesExact_idle (dats m 0 c) 7 t (idleAt7 t h4) (noFlush7 t h4),
    Dat.leavesExact_idle (dats m 0 c) 8 t (idleAt8 t h4) (noFlush8 t h4)]
  rw [outsAt_D m c t h1 h2 h4]
  unfold tilesD; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rD m c t h1 h2 h4 (prevAcc m c t) (prevDiag m c t)).2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, ⟨%es0, HS0⟩, HS1, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_D
      isplitl [HS1]; · iexact HS1
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem sound_E (c : Dev nD) (t : Fin cfg0.N) (h1 : ¬cond1 (grid0.coords t)) (h2 : cond2 (grid0.coords t)) (h4 : cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [leavesOut6 m c t h4, leavesOut7 m c t h4, leavesOut8 m c t h4]
  rw [outsAt_E m c t h1 h2 h4]
  unfold tilesE; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rE m c t h1 h2 h4 (prevAcc m c t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexists _; iexact HS1
  isplitl [HS2]; · iexact HS2
  iintro ⟨H0, H1, H2, H3, H4, H5, ⟨%e6, H6⟩, ⟨%e7, H7⟩, ⟨%e8, H8⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_E
      isplitl [HS1]
      · unfold owns; iexists _; isplitr
        swap; · iexact HS1
        ipureintro; exact View.read_writes_of_cover _ _ _ _ _ coverDiag_E
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ cover6_E
  isplitl [H7]
  · unfold owns; iexists _; isplitr
    swap; · iexact H7
    ipureintro; exact View.read_writes_of_cover _ _ _ _ _ cover7_E
  unfold owns; iexists _; isplitr
  swap; · iexact H8
  ipureintro; exact View.read_writes_of_cover _ _ _ _ _ cover8_E

set_option maxHeartbeats 4000000 in
theorem sound_F (c : Dev nD) (t : Fin cfg0.N) (h1 : ¬cond1 (grid0.coords t)) (h2 : ¬cond2 (grid0.coords t)) (h4 : cond4 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0 m c t, leavesIn1 m c t, leavesIn2 m c t, leavesIn3 m c t, leavesIn4 m c t, leavesIn5 m c t]
  rw [leavesOut6 m c t h4, leavesOut7 m c t h4, leavesOut8 m c t h4]
  rw [outsAt_F m c t h1 h2 h4]
  unfold tilesF; dsimp only
  have hz : t.val ≠ 0 := fun h => h1 (c1_zero t h).1
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rF m c t h1 h2 h4 (prevAcc m c t) (prevDiag m c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%es0, HS0⟩, HS1, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ coverAcc_F
      isplitl [HS1]; · iexact HS1
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ cover6_F
  isplitl [H7]
  · unfold owns; iexists _; isplitr
    swap; · iexact H7
    ipureintro; exact View.read_writes_of_cover _ _ _ _ _ cover7_F
  unfold owns; iexists _; isplitr
  swap; · iexact H8
  ipureintro; exact View.read_writes_of_cover _ _ _ _ _ cover8_F

/-- The body at any point: the tests select the case. -/
theorem sound_body (c : Dev nD) (t : Fin cfg0.N) :
    bodyPre m c t ⊢ wp frame (wpE (defs₀ (F := F)) Variants.none c none) Set.univ (bodyAt0 t) (fun _ => bodyPost m c t) := by
  by_cases h1 : cond1 (grid0.coords t)
  · by_cases h2 : cond2 (grid0.coords t)
    · exact sound_A m c t h1 h2
    · exact sound_B m c t h1 h2
  · by_cases h4 : cond4 (grid0.coords t)
    · by_cases h2 : cond2 (grid0.coords t)
      · exact sound_E m c t h1 h2 h4
      · exact sound_F m c t h1 h2 h4
    · by_cases h2 : cond2 (grid0.coords t)
      · exact sound_C m c t h1 h2 h4
      · exact sound_D m c t h1 h2 h4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: what the scratch tiles hold is
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, with every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KI.Pieces.lean ====
/-
  What each case's stored pieces read back as, over the input tiles and the scratch tiles found: every store of the body
  writes a whole tile, so the last store into a tile is what the tile holds, and a load after a store reads what was stored.
  In the body's own arithmetic (the payload functions of the generated skeleton):
    * the accumulator tile ends at  acc₀ + x·w_in + z·w'  — acc₀ the zero tile at a first contraction step, the tile found
      otherwise; w' the recurrent weight tile with its diagonal masked on the matrix diagonal, the tile itself off it;
    * the kept spike tile, at a step on the diagonal, is the spike tile of that step;
    * at a last contraction step the three results are the body's three result functions of the kept spike tile, the
      accumulator tile just completed, and the potential and refractory tiles.
-/
import proofs.«142747_j87522843560962_2_alg».proof.Proof.KI.Acc
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole tile after stores the LAST of which wrote the whole tile reads that store's payload, whatever
    the earlier ones wrote. -/
theorem readCov_cons_whole {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

theorem zero2 : (![0, 0] : Fin 2 → ℕ) = fun _ => 0 := by funext a; fin_cases a <;> rfl

/-- The named words of a run opened, every last store read as its payload, every load as what it finds. -/
local macro "read_words" : tactic => `(tactic| (
  sl_unfold_words
  simp only [View.canon_cons_unit_zero (S := S1024x512) zero2, View.canon_cons_unit_zero (S := S512x512) zero2,
    View.readAt_eq_ld, Memref.IsWhole.read_unread, View.ld_unit_zero (S := S1024x512) zero2, View.ld_unit_zero (S := S512x512) zero2,
    readCov_cons_whole (S := S1024x512) _ zero2, readCov_cons_whole (S := S512x512) _ zero2]))

section Pieces
variable {c : Dev nD} {i : grid0.Coords} {arg3 : Memref sig .tc .vmem S1024x512 .bf16} {harg3 : arg3.IsWhole} {arg4 : Memref sig .tc .vmem S512x512 .bf16} {harg4 : arg4.IsWhole} {arg5 : Memref sig .tc .vmem S1024x512 .bf16} {harg5 : arg5.IsWhole} {arg6 : Memref sig .tc .vmem S512x512 .bf16} {harg6 : arg6.IsWhole} {arg7 : Memref sig .tc .vmem S1024x512 .f32} {harg7 : arg7.IsWhole} {arg8 : Memref sig .tc .vmem S1024x512 .i32} {harg8 : arg8.IsWhole} {arg9 : Memref sig .tc .vmem S1024x512 .f32} {harg9 : arg9.IsWhole} {arg10 : Memref sig .tc .vmem S1024x512 .f32} {harg10 : arg10.IsWhole} {arg11 : Memref sig .tc .vmem S1024x512 .i32} {harg11 : arg11.IsWhole} {arg12 : Memref sig .tc .vmem S1024x512 .f32} {harg12 : arg12.IsWhole} {arg13 : Memref sig .tc .vmem S1024x512 .bf16} {harg13 : arg13.IsWhole} {arg14 : Memref sig .tc .vmem S512x512 .bf16} {harg14 : arg14.IsWhole} {x0 : Vec F S1024x512 .bf16} {x1 : Vec F S512x512 .bf16} {x2 : Vec F S1024x512 .bf16} {x3 : Vec F S512x512 .bf16} {x4 : Vec F S1024x512 .f32} {x5 : Vec F S1024x512 .i32}

/-- A first step on the diagonal: zero, plus the two products, the recurrent one through the masked tile. -/
theorem accA_eq {hc1 : cond1 i} {hc2 : cond2 i} {hc3 : ¬cond3 i} {hc4 : ¬cond4 i} :
    rdAcc (runA c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5).1 = k0_pay9 x2 (k0_pay6 x3) (k0_pay8 x0 x1 (k0_pay4 (F := F))) := by
  unfold rdAcc
  rw [View.read_writes_eq_canon _ _ _ coverAcc_A]
  unfold runA; dsimp only
  read_words

/-- and the kept spike tile is this step's spike tile. -/
theorem diagA_eq {hc1 : cond1 i} {hc2 : cond2 i} {hc3 : ¬cond3 i} {hc4 : ¬cond4 i} :
    rdDiag (runA c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5).2.1 = k0_pay5 x2 := by
  unfold rdDiag
  rw [View.read_writes_eq_canon _ _ _ coverDiag_A]
  unfold runA; dsimp only
  read_words

/-- A first step off the diagonal: zero, plus the two products, the recurrent one through the tile as it is. -/
theorem accB_eq {hc1 : cond1 i} {hc2 : ¬cond2 i} {hc3 : cond3 i} {hc4 : ¬cond4 i} {xs1 : Vec F S1024x512 .bf16} :
    rdAcc (runB c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs1).1 = k0_pay9 x2 (k0_pay7 x3) (k0_pay8 x0 x1 (k0_pay4 (F := F))) := by
  unfold rdAcc
  rw [View.read_writes_eq_canon _ _ _ coverAcc_B]
  unfold runB; dsimp only
  read_words

/-- An inner step on the diagonal: the accumulator found, plus the two products, the recurrent one through the masked tile. -/
theorem accC_eq {hc1 : ¬cond1 i} {hc2 : cond2 i} {hc3 : ¬cond3 i} {hc4 : ¬cond4 i} {xs0 : Vec F S1024x512 .f32} :
    rdAcc (runC c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).1 = k0_pay9 x2 (k0_pay6 x3) (k0_pay8 x0 x1 xs0) := by
  unfold rdAcc
  rw [View.read_writes_eq_canon _ _ _ coverAcc_C]
  unfold runC; dsimp only
  read_words

/-- and the kept spike tile is this step's spike tile. -/
theorem diagC_eq {hc1 : ¬cond1 i} {hc2 : cond2 i} {hc3 : ¬cond3 i} {hc4 : ¬cond4 i} {xs0 : Vec F S1024x512 .f32} :
    rdDiag (runC c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.1 = k0_pay5 x2 := by
  unfold rdDiag
  rw [View.read_writes_eq_canon _ _ _ coverDiag_C]
  unfold runC; dsimp only
  read_words

/-- An inner step off the diagonal: the accumulator found, plus the two products. -/
theorem accD_eq {hc1 : ¬cond1 i} {hc2 : ¬cond2 i} {hc3 : cond3 i} {hc4 : ¬cond4 i} {xs0 : Vec F S1024x512 .f32} {xs1 : Vec F S1024x512 .bf16} :
    rdAcc (runD c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).1 = k0_pay9 x2 (k0_pay7 x3) (k0_pay8 x0 x1 xs0) := by
  unfold rdAcc
  rw [View.read_writes_eq_canon _ _ _ coverAcc_D]
  unfold runD; dsimp only
  read_words

/-- The last step on the diagonal: the accumulator as at an inner step on the diagonal, -/
theorem accE_eq {hc1 : ¬cond1 i} {hc2 : cond2 i} {hc3 : ¬cond3 i} {hc4 : cond4 i} {xs0 : Vec F S1024x512 .f32} :
    rdAcc (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.2.1 = k0_pay9 x2 (k0_pay6 x3) (k0_pay8 x0 x1 xs0) := by
  unfold rdAcc
  rw [View.read_writes_eq_canon _ _ _ coverAcc_E]
  unfold runE; dsimp only
  read_words

/-- the kept spike tile this step's, -/
theorem diagE_eq {hc1 : ¬cond1 i} {hc2 : cond2 i} {hc3 : ¬cond3 i} {hc4 : cond4 i} {xs0 : Vec F S1024x512 .f32} :
    rdDiag (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.2.2.1 = k0_pay5 x2 := by
  unfold rdDiag
  rw [View.read_writes_eq_canon _ _ _ coverDiag_E]
  unfold runE; dsimp only
  read_words

/-- and the three results the body's functions of them: the potential, -/
theorem out6E_eq {hc1 : ¬cond1 i} {hc2 : cond2 i} {hc3 : ¬cond3 i} {hc4 : cond4 i} {xs0 : Vec F S1024x512 .f32} :
    rd6 (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).1 = k0_pay1 (k0_pay5 x2) (k0_pay9 x2 (k0_pay6 x3) (k0_pay8 x0 x1 xs0)) x4 := by
  unfold rd6
  rw [View.read_writes_eq_canon _ _ _ cover6_E]
  unfold runE; dsimp only
  read_words

/-- the spikes, -/
theorem out7E_eq {hc1 : ¬cond1 i} {hc2 : cond2 i} {hc3 : ¬cond3 i} {hc4 : cond4 i} {xs0 : Vec F S1024x512 .f32} :
    rd7 (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.1 = k0_pay2 (k0_pay5 x2) (k0_pay9 x2 (k0_pay6 x3) (k0_pay8 x0 x1 xs0)) x4 x5 := by
  unfold rd7
  rw [View.read_writes_eq_canon _ _ _ cover7_E]
  unfold runE; dsimp only
  read_words

/-- the refractory counters. -/
theorem out8E_eq {hc1 : ¬cond1 i} {hc2 : cond2 i} {hc3 : ¬cond3 i} {hc4 : cond4 i} {xs0 : Vec F S1024x512 .f32} :
    rd8 (runE c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0).2.2.1 = k0_pay3 (k0_pay5 x2) (k0_pay9 x2 (k0_pay6 x3) (k0_pay8 x0 x1 xs0)) x4 x5 x5 := by
  unfold rd8
  rw [View.read_writes_eq_canon _ _ _ cover8_E]
  unfold runE; dsimp only
  read_words

/-- The last step off the diagonal: the accumulator as at an inner step off the diagonal, -/
theorem accF_eq {hc1 : ¬cond1 i} {hc2 : ¬cond2 i} {hc3 : cond3 i} {hc4 : cond4 i} {xs0 : Vec F S1024x512 .f32} {xs1 : Vec F S1024x512 .bf16} :
    rdAcc (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.2.2.1 = k0_pay9 x2 (k0_pay7 x3) (k0_pay8 x0 x1 xs0) := by
  unfold rdAcc
  rw [View.read_writes_eq_canon _ _ _ coverAcc_F]
  unfold runF; dsimp only
  read_words

/-- and the three results over the spike tile kept earlier: the potential, -/
theorem out6F_eq {hc1 : ¬cond1 i} {hc2 : ¬cond2 i} {hc3 : cond3 i} {hc4 : cond4 i} {xs0 : Vec F S1024x512 .f32} {xs1 : Vec F S1024x512 .bf16} :
    rd6 (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).1 = k0_pay1 xs1 (k0_pay9 x2 (k0_pay7 x3) (k0_pay8 x0 x1 xs0)) x4 := by
  unfold rd6
  rw [View.read_writes_eq_canon _ _ _ cover6_F]
  unfold runF; dsimp only
  read_words

/-- the spikes, -/
theorem out7F_eq {hc1 : ¬cond1 i} {hc2 : ¬cond2 i} {hc3 : cond3 i} {hc4 : cond4 i} {xs0 : Vec F S1024x512 .f32} {xs1 : Vec F S1024x512 .bf16} :
    rd7 (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.1 = k0_pay2 xs1 (k0_pay9 x2 (k0_pay7 x3) (k0_pay8 x0 x1 xs0)) x4 x5 := by
  unfold rd7
  rw [View.read_writes_eq_canon _ _ _ cover7_F]
  unfold runF; dsimp only
  read_words

/-- the refractory counters. -/
theorem out8F_eq {hc1 : ¬cond1 i} {hc2 : ¬cond2 i} {hc3 : cond3 i} {hc4 : cond4 i} {xs0 : Vec F S1024x512 .f32} {xs1 : Vec F S1024x512 .bf16} :
    rd8 (runF c i arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 xs0 xs1).2.2.1 = k0_pay3 xs1 (k0_pay9 x2 (k0_pay7 x3) (k0_pay8 x0 x1 xs0)) x4 x5 x5 := by
  unfold rd8
  rw [View.read_writes_eq_canon _ _ _ cover8_F]
  unfold runF; dsimp only
  read_words

end Pieces

end Cert.KernelIdeal.Body

end
-- ==== Proof.KI.Blocks.lean ====
/-
  Where a block sits in its array. The grid point (i, j, k) reads, through its six input windows, the tiles
      inputs (i, k)   w_in (k, j)   spikes (i, k)   w_rec (k, j)   potentials (i, j)   refractory counters (i, j)
  of 1024 × 512, 512 × 512, 1024 × 512, 512 × 512, 1024 × 512, 1024 × 512 entries: entry (y₀, y₁) of a tile with block index
  (a, b) is entry (rows · a + y₀, columns · b + y₁) of the array. Entries of a 4096 × 4096 array are named here by natural
  coordinates (reduced modulo the extent, which changes nothing in range), so that statements about tiles are arithmetic.
  The four matrix operands reach the kernel through a change of float format, which at the ideal values is the identity.
-/
import proofs.«142747_j87522843560962_2_alg».proof.Proof.Gen.KernelIdeal.Frame
import Idealize.ShloMosaic.Lib.ValueIdx
import Idealize.ShloMosaic.Lib.StableHlo.Run

set_option maxRecDepth 16384

noncomputable section

namespace Cert.KernelIdeal.Tile

open Cert.KernelIdeal Cert.KernelIdeal.Gen Idealize.ShloMosaic Idealize.ShloMosaic.TcCoe Idealize.ShloMosaic.ValueIdx
open Idealize.SL.Sem Idealize.ShloMosaic.StableHlo

/-- An entry of a 4096 × 4096 array at natural coordinates. -/
def at2 {α : Type} (A : S4096x4096.Idx → α) (r c : ℕ) : α :=
  A (ix2 (⟨r % 4096, Nat.mod_lt _ (by decide)⟩ : Fin 4096) (⟨c % 4096, Nat.mod_lt _ (by decide)⟩ : Fin 4096))

theorem at2_idx {α : Type} (A : S4096x4096.Idx → α) (i : S4096x4096.Idx) : at2 A (i 0).val (i 1).val = A i := by
  unfold at2
  congr 1
  funext a
  match a with
  | ⟨0, _⟩ => exact Fin.ext (Nat.mod_eq_of_lt (i 0).isLt)
  | ⟨1, _⟩ => exact Fin.ext (Nat.mod_eq_of_lt (i 1).isLt)

/-- The row-tile, column-tile and contraction-tile numbers of a grid point. -/
abbrev gI (t : Fin cfg0.N) : ℕ := (grid0.coords t 0).val
abbrev gJ (t : Fin cfg0.N) : ℕ := (grid0.coords t 1).val
abbrev gK (t : Fin cfg0.N) : ℕ := (grid0.coords t 2).val

/-- The printed index maps, decided over the 256 points: which tile each window reads or writes at a point. -/
theorem idx_facts : ∀ t : Fin cfg0.N,
    win0_0.index t (0 : Fin 2) = gI t ∧ win0_0.index t (1 : Fin 2) = gK t
  ∧ win0_1.index t (0 : Fin 2) = gK t ∧ win0_1.index t (1 : Fin 2) = gJ t
  ∧ win0_2.index t (0 : Fin 2) = gI t ∧ win0_2.index t (1 : Fin 2) = gK t
  ∧ win0_3.index t (0 : Fin 2) = gK t ∧ win0_3.index t (1 : Fin 2) = gJ t
  ∧ win0_4.index t (0 : Fin 2) = gI t ∧ win0_4.index t (1 : Fin 2) = gJ t
  ∧ win0_5.index t (0 : Fin 2) = gI t ∧ win0_5.index t (1 : Fin 2) = gJ t
  ∧ win0_6.index t (0 : Fin 2) = gI t ∧ win0_6.index t (1 : Fin 2) = gJ t
  ∧ win0_7.index t (0 : Fin 2) = gI t ∧ win0_7.index t (1 : Fin 2) = gJ t
  ∧ win0_8.index t (0 : Fin 2) = gI t ∧ win0_8.index t (1 : Fin 2) = gJ t
  ∧ gI t < 4 ∧ gJ t < 8 ∧ gK t < 8 :=
  (by decide +kernel : ∀ t : Fin grid0.N, _)

variable {F : FTy → Type} [FloatOps F]
variable (m : (ℓ : Loc nD τ sig) → Buf (Elt F) ℓ)

/- Each input window's block at a point, entry by entry. -/
theorem iblk0_apply (c : Dev nD) (t : Fin cfg0.N) (y : S1024x512.Idx) :
    iblk m c 0 t y = at2 (V m c main_v0) (1024 * gI t + (y 0).val) (512 * gK t + (y 1).val) := by
  obtain ⟨e0, e1, -, -, -, -, -, -, -, -, -, -, -, -, -, -, -, -, hI, hJ, hK⟩ := idx_facts t
  have hy0 : (y 0).val < 1024 := (y 0).isLt
  have hy1 : (y 1).val < 512 := (y 1).isLt
  unfold iblk at2
  show V m c main_v0 (((cfg0.win 0).blk t).view.emb y) = V m c main_v0 _
  congr 1
  funext a; apply Fin.ext
  match a with
  | ⟨0, _⟩ => show win0_0.index t (0 : Fin 2) * 1024 + 1 * (y 0).val = (1024 * gI t + (y 0).val) % 4096; omega
  | ⟨1, _⟩ => show win0_0.index t (1 : Fin 2) * 512 + 1 * (y 1).val = (512 * gK t + (y 1).val) % 4096; omega

theorem iblk1_apply (c : Dev nD) (t : Fin cfg0.N) (y : S512x512.Idx) :
    iblk m c 1 t y = at2 (V m c main_v2) (512 * gK t + (y 0).val) (512 * gJ t + (y 1).val) := by
  obtain ⟨-, -, e0, e1, -, -, -, -, -, -, -, -, -, -, -, -, -, -, hI, hJ, hK⟩ := idx_facts t
  have hy0 : (y 0).val < 512 := (y 0).isLt
  have hy1 : (y 1).val < 512 := (y 1).isLt
  unfold iblk at2
  show V m c main_v2 (((cfg0.win 1).blk t).view.emb y) = V m c main_v2 _
  congr 1
  funext a; apply Fin.ext
  match a with
  | ⟨0, _⟩ => show win0_1.index t (0 : Fin 2) * 512 + 1 * (y 0).val = (512 * gK t + (y 0).val) % 4096; omega
  | ⟨1, _⟩ => show win0_1.index t (1 : Fin 2) * 512 + 1 * (y 1).val = (512 * gJ t + (y 1).val) % 4096; omega

theorem iblk2_apply (c : Dev nD) (t : Fin cfg0.N) (y : S1024x512.Idx) :
    iblk m c 2 t y = at2 (V m c main_v1) (1024 * gI t + (y 0).val) (512 * gK t + (y 1).val) := by
  obtain ⟨-, -, -, -, e0, e1, -, -, -, -, -, -, -, -, -, -, -, -, hI, hJ, hK⟩ := idx_facts t
  have hy0 : (y 0).val < 1024 := (y 0).isLt
  have hy1 : (y 1).val < 512 := (y 1).isLt
  unfold iblk at2
  show V m c main_v1 (((cfg0.win 2).blk t).view.emb y) = V m c main_v1 _
  congr 1
  funext a; apply Fin.ext
  match a with
  | ⟨0, _⟩ => show win0_2.index t (0 : Fin 2) * 1024 + 1 * (y 0).val = (1024 * gI t + (y 0).val) % 4096; omega
  | ⟨1, _⟩ => show win0_2.index t (1 : Fin 2) * 512 + 1 * (y 1).val = (512 * gK t + (y 1).val) % 4096; omega

theorem iblk3_apply (c : Dev nD) (t : Fin cfg0.N) (y : S512x512.Idx) :
    iblk m c 3 t y = at2 (V m c main_v3) (512 * gK t + (y 0).val) (512 * gJ t + (y 1).val) := by
  obtain ⟨-, -, -, -, -, -, e0, e1, -, -, -, -, -, -, -, -, -, -, hI, hJ, hK⟩ := idx_facts t
  have hy0 : (y 0).val < 512 := (y 0).isLt
  have hy1 : (y 1).val < 512 := (y 1).isLt
  unfold iblk at2
  show V m c main_v3 (((cfg0.win 3).blk t).view.emb y) = V m c main_v3 _
  congr 1
  funext a; apply Fin.ext
  match a with
  | ⟨0, _⟩ => show win0_3.index t (0 : Fin 2) * 512 + 1 * (y 0).val = (512 * gK t + (y 0).val) % 4096; omega
  | ⟨1, _⟩ => show win0_3.index t (1 : Fin 2) * 512 + 1 * (y 1).val = (512 * gJ t + (y 1).val) % 4096; omega

theorem iblk4_apply (c : Dev nD) (t : Fin cfg0.N) (y : S1024x512.Idx) :
    iblk m c 4 t y = at2 (V m c main_arg1) (1024 * gI t + (y 0).val) (512 * gJ t + (y 1).val) := by
  obtain ⟨-, -, -, -, -, -, -, -, e0, e1, -, -, -, -, -, -, -, -, hI, hJ, hK⟩ := idx_facts t
  have hy0 : (y 0).val < 1024 := (y 0).isLt
  have hy1 : (y 1).val < 512 := (y 1).isLt
  unfold iblk at2
  show V m c main_arg1 (((cfg0.win 4).blk t).view.emb y) = V m c main_arg1 _
  congr 1
  funext a; apply Fin.ext
  match a with
  | ⟨0, _⟩ => show win0_4.index t (0 : Fin 2) * 1024 + 1 * (y 0).val = (1024 * gI t + (y 0).val) % 4096; omega
  | ⟨1, _⟩ => show win0_4.index t (1 : Fin 2) * 512 + 1 * (y 1).val = (512 * gJ t + (y 1).val) % 4096; omega

theorem iblk5_apply (c : Dev nD) (t : Fin cfg0.N) (y : S1024x512.Idx) :
    iblk m c 5 t y = at2 (V m c main_arg2) (1024 * gI t + (y 0).val) (512 * gJ t + (y 1).val) := by
  obtain ⟨-, -, -, -, -, -, -, -, -, -, e0, e1, -, -, -, -, -, -, hI, hJ, hK⟩ := idx_facts t
  have hy0 : (y 0).val < 1024 := (y 0).isLt
  have hy1 : (y 1).val < 512 := (y 1).isLt
  unfold iblk at2
  show V m c main_arg2 (((cfg0.win 5).blk t).view.emb y) = V m c main_arg2 _
  congr 1
  funext a; apply Fin.ext
  match a with
  | ⟨0, _⟩ => show win0_5.index t (0 : Fin 2) * 1024 + 1 * (y 0).val = (1024 * gI t + (y 0).val) % 4096; omega
  | ⟨1, _⟩ => show win0_5.index t (1 : Fin 2) * 512 + 1 * (y 1).val = (512 * gJ t + (y 1).val) % 4096; omega

end Cert.KernelIdeal.Tile

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LifSpec.lean ====
/-
  Two small facts every part of the value argument shares.
  * The factor that removes the self-connections: entry (r, c) of the recurrent weights is multiplied by 0 on the diagonal
    and by 1 off it.
  * A comparison bit turned into a float is 1 or 0 either way it is done: read as an unsigned one-bit word, or widened to
    32 bits and read signed.
-/
import Idealize.ShloMosaic.PureOps.Ideal
import Mathlib.Data.EReal.Basic

noncomputable section

namespace Cert.Lif

open Idealize.ShloMosaic

/-- 0 on the diagonal, 1 off it. -/
def offDiag (r c : ℕ) : EReal := if r = c then 0 else 1

theorem offDiag_of_ne {r c : ℕ} (h : r ≠ c) : offDiag r c = 1 := if_neg h
theorem offDiag_congr {r c r' c' : ℕ} (h : r = c ↔ r' = c') : offDiag r c = offDiag r' c' := if_congr h rfl rfl

/-- The words 1.0 (in both float formats) and 0.0 denote 1 and 0. -/
theorem one_bf16 : Ideal.ofBits .bf16 0x3F80#16 = 1 := by
  simp [Ideal.ofBits, Ideal.ieee, -EReal.coe_mul]; norm_num
theorem one_f32 : Ideal.ofBits .f32 0x3F800000#32 = 1 := by
  simp [Ideal.ofBits, Ideal.ieee, -EReal.coe_mul]; norm_num
theorem zero_f32 : Ideal.ofBits .f32 0x00000000#32 = 0 := by
  simp [Ideal.ofBits, Ideal.ieee]

/-- Equality of two naturals below 2^32 as the comparison bit of their 32-bit words. -/
theorem eqBit (a b : ℕ) (ha : a < 4096) (hb : b < 4096) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h (by
      have := congrArg BitVec.toNat e
      simp only [BitVec.toNat_ofNat] at this
      omega)
    have hb : (BitVec.ofNat 32 a == BitVec.ofNat 32 b) = false := beq_eq_false_iff_ne.mpr hne
    rw [if_neg h, hb]; rfl

/-- A bit widened to 32 bits and read signed is the bit read unsigned. -/
theorem widen_signed : ∀ b : BitVec 1, (b.setWidth 32).toInt = (b.toNat : ℤ) := by decide

/-- One minus the float of the bit "r = c" is the factor that removes the diagonal — the bit converted unsigned, -/
theorem one_sub_bit_unsigned (r c : ℕ) :
    (1 : EReal) - (((if r = c then 1#1 else 0#1 : BitVec 1).toNat : ℝ) : EReal) = offDiag r c := by
  unfold offDiag
  by_cases h : r = c
  · rw [if_pos h, if_pos h, show ((1#1 : BitVec 1).toNat) = 1 from rfl, Nat.cast_one, ← EReal.coe_one, ← EReal.coe_sub, sub_self,
      EReal.coe_zero]
  · rw [if_neg h, if_neg h, show ((0#1 : BitVec 1).toNat) = 0 from rfl, Nat.cast_zero, EReal.coe_zero, sub_zero]
/-- or widened and converted signed. -/
theorem one_sub_bit_signed (r c : ℕ) :
    (1 : EReal) - (((((if r = c then 1#1 else 0#1 : BitVec 1).setWidth 32).toInt : ℤ) : ℝ) : EReal) = offDiag r c := by
  rw [widen_signed, Int.cast_natCast]
  exact one_sub_bit_unsigned r c

end Cert.Lif

end
-- ==== Proof.KI.Payloads.lean ====
/-
  The body's arithmetic read at an entry, at the ideal values (floats extended reals, operations exact, format changes
  the identity). With (p, q) an entry of a 1024 × 512 tile and l running over the 512 contraction positions of a tile:
    * the reset tile is 0 everywhere;
    * keeping a tile (a load, shape casts, a store) keeps it;
    * the masked recurrent weight tile is the tile times 0 on its own diagonal and times 1 off it;
    * each of the two accumulation steps adds to the accumulator entry the plain sum over l of left (p, l) · right (l, q):
      the matrix unit multiplies into a zero accumulator and the result is added to the tile.
-/
import proofs.«142747_j87522843560962_2_alg».proof.Proof.Gen.KernelIdeal.Skeleton
import proofs.«142747_j87522843560962_2_alg».proof.Proof.LibPlainDot
import proofs.«142747_j87522843560962_2_alg».proof.Proof.LifSpec
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx Cert.Lif
open scoped BigOperators

/-- The reset tile is zero. -/
theorem pay4_apply (y : S1024x512.Idx) : k0_pay4 (F := Ideal) y = 0 := by
  unfold k0_pay4
  simp only [shapeCast_self]
  exact zero_f32

/-- A tile kept is the tile. -/
theorem pay5_eq (x : Vec Ideal S1024x512 .bf16) : k0_pay5 x = x := by
  unfold k0_pay5
  simp only [shapeCast_self]
theorem pay7_eq (x : Vec Ideal S512x512 .bf16) : k0_pay7 x = x := by
  unfold k0_pay7
  simp only [shapeCast_self]

/-- The body's matrix product is the plain one: rows × contraction times contraction × columns. -/
theorem dot_plain : dot_S1024x512_S512x512_S1024x512_1_0_0_1_n_n = DotDims.plain 1024 512 512 := rfl

/-- The first accumulation step: the accumulator entry plus the product of the input tile with the input weight tile. -/
theorem pay8_apply (x0 : Vec Ideal S1024x512 .bf16) (x1 : Vec Ideal S512x512 .bf16) (a : Vec Ideal S1024x512 .f32)
    (p : Fin 1024) (q : Fin 512) :
    k0_pay8 x0 x1 a (ix2 p q) = a (ix2 p q) + ∑ l : Fin 512, x0 (ix2 p l) * x1 (ix2 l q) := by
  unfold k0_pay8
  simp only [shapeCast_self]
  show a (ix2 p q) + matmul dot_S1024x512_S512x512_S1024x512_1_0_0_1_n_n none x0 x1 (constant (F := Ideal) S1024x512 .f32 0x00000000#32) (ix2 p q) = _
  rw [dot_plain, Cert.Lib.PlainDot.matmul_plain_zero_apply]

/-- The second: plus the product of the spike tile with the recurrent weight tile as multiplied. -/
theorem pay9_apply (x2 : Vec Ideal S1024x512 .bf16) (w : Vec Ideal S512x512 .bf16) (a : Vec Ideal S1024x512 .f32)
    (p : Fin 1024) (q : Fin 512) :
    k0_pay9 x2 w a (ix2 p q) = a (ix2 p q) + ∑ l : Fin 512, x2 (ix2 p l) * w (ix2 l q) := by
  unfold k0_pay9
  simp only [shapeCast_self]
  show a (ix2 p q) + matmul dot_S1024x512_S512x512_S1024x512_1_0_0_1_n_n none x2 w (constant (F := Ideal) S1024x512 .f32 0x00000000#32) (ix2 p q) = _
  rw [dot_plain, Cert.Lib.PlainDot.matmul_plain_zero_apply]

/-- The masked recurrent weight tile: the tile's own diagonal removed. -/
theorem pay6_apply (x : Vec Ideal S512x512 .bf16) (a q : Fin 512) :
    k0_pay6 x (ix2 a q) = x (ix2 a q) * offDiag a.val q.val := by
  unfold k0_pay6
  simp only [shapeCast_self]
  show x (ix2 a q) * (Ideal.ofBits .bf16 0x3F80#16
      - ((((IntOp.cmpi .eq (iota .tc S512x512 32 [0] iota_S512x512_d0_w32 (ix2 a q)) (iota .tc S512x512 32 [1] iota_S512x512_d1_w32 (ix2 a q))).setWidth 32).toInt : ℝ) : EReal)) = _
  rw [iota_single_apply, iota_single_apply]
  show x (ix2 a q) * (Ideal.ofBits .bf16 0x3F80#16
      - ((((IntOp.cmpi .eq (BitVec.ofNat 32 a.val) (BitVec.ofNat 32 q.val)).setWidth 32).toInt : ℝ) : EReal)) = _
  rw [eqBit a.val q.val (by omega) (by omega), one_bf16, one_sub_bit_signed]

end Cert.KernelIdeal.Tile

end
-- ==== Proof.KI.Invariant.lean ====
/-
  What the accumulator tile and the kept spike tile hold after every point of the grid, as functions of the arrays.
  Write X, W_in, Z, W_rec for the four matrix operands as the kernel finds them and (I, J, K) for the row-tile,
  column-tile and contraction-tile numbers of a point. The contraction tile k contributes to entry (p, q) of the output tile
  (I, J) the two partial products
      Σ_l X (1024 I + p, 512 k + l) · W_in (512 k + l, 512 J + q)
    + Σ_l Z (1024 I + p, 512 k + l) · (W_rec (512 k + l, 512 J + q) · [512 k + l ≠ 512 J + q]).
  * After the point (I, J, K) the accumulator tile holds, at (p, q), the sum of the contributions of the tiles k = 0..K:
    it is reset at K = 0 and every point adds its own tile's contribution — on the diagonal K = J through the weight tile
    with its own diagonal removed, which is the bracket above because 512 K + l = 512 J + q exactly when l = q; off it
    through the tile itself, where the bracket is 1.
  * From the point K = J of a sweep on, the kept spike tile is the (I, J) tile of Z.
  * At the last point K = 7 of a sweep the three result tiles are the body's three result functions of those two tiles and
    of the (I, J) tiles of the potentials and the refractory counters.
  The proof walks the grid: a point with K > 0 follows the point (I, J, K − 1).
-/
import proofs.«142747_j87522843560962_2_alg».proof.Proof.KI.Pieces
import proofs.«142747_j87522843560962_2_alg».proof.Proof.KI.Blocks
import proofs.«142747_j87522843560962_2_alg».proof.Proof.KI.Payloads

set_option maxRecDepth 16384

noncomputable section

namespace Cert.KernelIdeal.Tile

open Cert.KernelIdeal Cert.KernelIdeal.Gen Cert.KernelIdeal.Body Cert.Lif
open Idealize.ShloMosaic Idealize.ShloMosaic.TcCoe Idealize.ShloMosaic.ValueIdx Idealize.SL.Sem
open scoped BigOperators

/-! ## The tests and the walk, as arithmetic (decided over the 256 points) -/

theorem cond_facts : ∀ t : Fin cfg0.N,
    (cond1 (grid0.coords t) ↔ gK t = 0) ∧ (cond2 (grid0.coords t) ↔ gK t = gJ t) ∧ (cond4 (grid0.coords t) ↔ gK t = 7) :=
  (by decide +kernel : ∀ t : Fin grid0.N, _)

/-- The point before. -/
abbrev prevPt (t : Fin cfg0.N) : Fin cfg0.N := ⟨t.val - 1, Nat.lt_of_le_of_lt (Nat.sub_le _ _) t.isLt⟩

/-- Within a sweep the point before is the contraction step before, of the same output tile. -/
theorem prev_facts : ∀ t : Fin cfg0.N, gK t ≠ 0 →
    gI (prevPt t) = gI t ∧ gJ (prevPt t) = gJ t ∧ gK (prevPt t) + 1 = gK t ∧ t.val ≠ 0 :=
  (by decide +kernel : ∀ t : Fin grid0.N, _)

variable (m : (ℓ : Loc nD τ sig) → Buf (Elt Ideal) ℓ)

/-! ## The four matrix operands and the contribution of one contraction tile -/

abbrev aX (c : Dev nD) : S4096x4096.Idx → EReal := V m c main_v0
abbrev aWin (c : Dev nD) : S4096x4096.Idx → EReal := V m c main_v2
abbrev aZ (c : Dev nD) : S4096x4096.Idx → EReal := V m c main_v1
abbrev aWrec (c : Dev nD) : S4096x4096.Idx → EReal := V m c main_v3

/-- The contribution of contraction tile `k` to entry (p, q) of output tile (I, J). -/
def contrib (X Win Z Wrec : S4096x4096.Idx → EReal) (I J k : ℕ) (p : Fin 1024) (q : Fin 512) : EReal :=
  (∑ l : Fin 512, at2 X (1024 * I + p.val) (512 * k + l.val) * at2 Win (512 * k + l.val) (512 * J + q.val))
  + (∑ l : Fin 512, at2 Z (1024 * I + p.val) (512 * k + l.val)
      * (at2 Wrec (512 * k + l.val) (512 * J + q.val) * offDiag (512 * k + l.val) (512 * J + q.val)))

/-- On the diagonal the masked weight tile is the array's tile with the array's diagonal removed. -/
theorem wtile_diag (c : Dev nD) (t : Fin cfg0.N) (h2 : cond2 (grid0.coords t)) (l q : Fin 512) :
    k0_pay6 (iblk m c 3 t) (ix2 l q)
      = at2 (aWrec m c) (512 * gK t + l.val) (512 * gJ t + q.val) * offDiag (512 * gK t + l.val) (512 * gJ t + q.val) := by
  have hk : gK t = gJ t := (cond_facts t).2.1.mp h2
  rw [pay6_apply (iblk m c 3 t) l q, iblk3_apply m c t (ix2 l q)]
  show at2 (aWrec m c) (512 * gK t + l.val) (512 * gJ t + q.val) * offDiag l.val q.val = _
  rw [offDiag_congr (show l.val = q.val ↔ 512 * gK t + l.val = 512 * gJ t + q.val by omega)]

/-- Off it the weight tile is used as it is, and nothing of the array's diagonal lies in it. -/
theorem wtile_off (c : Dev nD) (t : Fin cfg0.N) (h2 : ¬cond2 (grid0.coords t)) (l q : Fin 512) :
    k0_pay7 (iblk m c 3 t) (ix2 l q)
      = at2 (aWrec m c) (512 * gK t + l.val) (512 * gJ t + q.val) * offDiag (512 * gK t + l.val) (512 * gJ t + q.val) := by
  have hk : gK t ≠ gJ t := fun h => h2 ((cond_facts t).2.1.mpr h)
  have hl := l.isLt
  have hq := q.isLt
  rw [pay7_eq, iblk3_apply m c t (ix2 l q), offDiag_of_ne (by omega), mul_one]

/-- Two accumulation steps, over any tiles that are the named tiles of the arrays: they add the contraction tile's
    contribution. -/
theorem acc_step_tiles (x0 : Vec Ideal S1024x512 .bf16) (x1 : Vec Ideal S512x512 .bf16) (x2 : Vec Ideal S1024x512 .bf16)
    (W : Vec Ideal S512x512 .bf16) (a : Vec Ideal S1024x512 .f32) (X Win Z Wrec : S4096x4096.Idx → EReal) (I J K : ℕ)
    (h0 : ∀ (p : Fin 1024) (l : Fin 512), x0 (ix2 p l) = at2 X (1024 * I + p.val) (512 * K + l.val))
    (h1 : ∀ (l q : Fin 512), x1 (ix2 l q) = at2 Win (512 * K + l.val) (512 * J + q.val))
    (h2 : ∀ (p : Fin 1024) (l : Fin 512), x2 (ix2 p l) = at2 Z (1024 * I + p.val) (512 * K + l.val))
    (hW : ∀ l q : Fin 512, W (ix2 l q) = at2 Wrec (512 * K + l.val) (512 * J + q.val) * offDiag (512 * K + l.val) (512 * J + q.val))
    (p : Fin 1024) (q : Fin 512) :
    k0_pay9 x2 W (k0_pay8 x0 x1 a) (ix2 p q) = a (ix2 p q) + contrib X Win Z Wrec I J K p q := by
  rw [pay9_apply, pay8_apply]
  unfold contrib
  rw [add_assoc]
  congr 1
  congr 1
  · exact Finset.sum_congr rfl fun l _ => by rw [h0, h1]
  · exact Finset.sum_congr rfl fun l _ => by rw [h2, hW]

/-- One point's two accumulation steps add its tile's contribution. -/
theorem acc_step (c : Dev nD) (t : Fin cfg0.N) (W : Vec Ideal S512x512 .bf16) (a : Vec Ideal S1024x512 .f32)
    (hW : ∀ l q : Fin 512, W (ix2 l q)
      = at2 (aWrec m c) (512 * gK t + l.val) (512 * gJ t + q.val) * offDiag (512 * gK t + l.val) (512 * gJ t + q.val))
    (p : Fin 1024) (q : Fin 512) :
    k0_pay9 (iblk m c 2 t) W (k0_pay8 (iblk m c 0 t) (iblk m c 1 t) a) (ix2 p q)
      = a (ix2 p q) + contrib (aX m c) (aWin m c) (aZ m c) (aWrec m c) (gI t) (gJ t) (gK t) p q :=
  acc_step_tiles (iblk m c 0 t) (iblk m c 1 t) (iblk m c 2 t) W a (aX m c) (aWin m c) (aZ m c) (aWrec m c) (gI t) (gJ t) (gK t)
    (fun p l => iblk0_apply m c t (ix2 p l)) (fun l q => iblk1_apply m c t (ix2 l q)) (fun p l => iblk2_apply m c t (ix2 p l)) hW p q

/-! ## The accumulator tile after each point -/

set_option maxHeartbeats 4000000 in
theorem acc_inv (c : Dev nD) : ∀ (n : ℕ) (t : Fin cfg0.N), t.val = n → ∀ (p : Fin 1024) (q : Fin 512),
    (outsAt m c t.val t.isLt).2.2.2.1 (ix2 p q)
      = ∑ k ∈ Finset.range (gK t + 1), contrib (aX m c) (aWin m c) (aZ m c) (aWrec m c) (gI t) (gJ t) k p q := by
  intro n
  induction n using Nat.strong_induction_on with
  | _ n ih =>
    intro t ht p q
    obtain ⟨hc1, hc2, hc4⟩ := cond_facts t
    by_cases h1 : cond1 (grid0.coords t)
    · have hk : gK t = 0 := hc1.mp h1
      rw [hk, zero_add, Finset.sum_range_one]
      by_cases h2 : cond2 (grid0.coords t)
      · rw [outsAt_A m c t h1 h2]; unfold tilesA; dsimp only
        rw [accA_eq, acc_step m c t (k0_pay6 (iblk m c 3 t)) (k0_pay4 (F := Ideal)) (wtile_diag m c t h2) p q, pay4_apply, zero_add, hk]
      · rw [outsAt_B m c t h1 h2]; unfold tilesB; dsimp only
        rw [accB_eq, acc_step m c t (k0_pay7 (iblk m c 3 t)) (k0_pay4 (F := Ideal)) (wtile_off m c t h2) p q, pay4_apply, zero_add, hk]
    · have hk : gK t ≠ 0 := fun h => h1 (hc1.mpr h)
      obtain ⟨eI, eJ, eK, hz⟩ := prev_facts t hk
      have ihp := ih (t.val - 1) (by omega) (prevPt t) rfl p q
      rw [eI, eJ, eK] at ihp
      rw [← eK, Finset.sum_range_succ, eK, ← ihp]
      by_cases h4 : cond4 (grid0.coords t)
      · by_cases h2 : cond2 (grid0.coords t)
        · rw [outsAt_E m c t h1 h2 h4]; unfold tilesE; dsimp only
          rw [accE_eq, acc_step m c t (k0_pay6 (iblk m c 3 t)) (prevAcc m c t) (wtile_diag m c t h2) p q]
        · rw [outsAt_F m c t h1 h2 h4]; unfold tilesF; dsimp only
          rw [accF_eq, acc_step m c t (k0_pay7 (iblk m c 3 t)) (prevAcc m c t) (wtile_off m c t h2) p q]
      · by_cases h2 : cond2 (grid0.coords t)
        · rw [outsAt_C m c t h1 h2 h4]; unfold tilesC; dsimp only
          rw [accC_eq, acc_step m c t (k0_pay6 (iblk m c 3 t)) (prevAcc m c t) (wtile_diag m c t h2) p q]
        · rw [outsAt_D m c t h1 h2 h4]; unfold tilesD; dsimp only
          rw [accD_eq, acc_step m c t (k0_pay7 (iblk m c 3 t)) (prevAcc m c t) (wtile_off m c t h2) p q]

/-! ## The kept spike tile from the diagonal point of a sweep on -/

set_option maxHeartbeats 4000000 in
theorem diag_inv (c : Dev nD) : ∀ (n : ℕ) (t : Fin cfg0.N), t.val = n → gJ t ≤ gK t → ∀ (p : Fin 1024) (q : Fin 512),
    (outsAt m c t.val t.isLt).2.2.2.2 (ix2 p q) = at2 (aZ m c) (1024 * gI t + p.val) (512 * gJ t + q.val) := by
  intro n
  induction n using Nat.strong_induction_on with
  | _ n ih =>
    intro t ht hjk p q
    obtain ⟨hc1, hc2, hc4⟩ := cond_facts t
    by_cases h2 : cond2 (grid0.coords t)
    · have hk : gK t = gJ t := hc2.mp h2
      have hkept : k0_pay5 (iblk m c 2 t) (ix2 p q) = at2 (aZ m c) (1024 * gI t + p.val) (512 * gJ t + q.val) := by
        rw [pay5_eq, iblk2_apply m c t (ix2 p q), ← hk]
      by_cases h1 : cond1 (grid0.coords t)
      · rw [outsAt_A m c t h1 h2]; unfold tilesA; dsimp only
        rw [diagA_eq]; exact hkept
      · by_cases h4 : cond4 (grid0.coords t)
        · rw [outsAt_E m c t h1 h2 h4]; unfold tilesE; dsimp only
          rw [diagE_eq]; exact hkept
        · rw [outsAt_C m c t h1 h2 h4]; unfold tilesC; dsimp only
          rw [diagC_eq]; exact hkept
    · have hne : gK t ≠ gJ t := fun h => h2 (hc2.mpr h)
      have hk : gK t ≠ 0 := by omega
      have h1 : ¬cond1 (grid0.coords t) := fun h => hk (hc1.mp h)
      obtain ⟨eI, eJ, eK, hz⟩ := prev_facts t hk
      have ihp := ih (t.val - 1) (by omega) (prevPt t) rfl (by omega) p q
      rw [eI, eJ] at ihp
      by_cases h4 : cond4 (grid0.coords t)
      · rw [outsAt_F m c t h1 h2 h4]; unfold tilesF; dsimp only
        exact ihp
      · rw [outsAt_D m c t h1 h2 h4]; unfold tilesD; dsimp only
        exact ihp

/-! ## The three results at a last contraction step -/

set_option maxHeartbeats 4000000 in
theorem out6_eq (c : Dev nD) (t : Fin cfg0.N) (h4 : cond4 (grid0.coords t)) :
    (outsAt m c t.val t.isLt).1
      = k0_pay1 (outsAt m c t.val t.isLt).2.2.2.2 (outsAt m c t.val t.isLt).2.2.2.1 (iblk m c 4 t) := by
  have h1 : ¬cond1 (grid0.coords t) := fun h => c1_not_c4 t h h4
  by_cases h2 : cond2 (grid0.coords t)
  · rw [outsAt_E m c t h1 h2 h4]; unfold tilesE; dsimp only
    rw [out6E_eq, accE_eq, diagE_eq]
  · rw [outsAt_F m c t h1 h2 h4]; unfold tilesF; dsimp only
    rw [out6F_eq, accF_eq]

set_option maxHeartbeats 4000000 in
theorem out7_eq (c : Dev nD) (t : Fin cfg0.N) (h4 : cond4 (grid0.coords t)) :
    (outsAt m c t.val t.isLt).2.1
      = k0_pay2 (outsAt m c t.val t.isLt).2.2.2.2 (outsAt m c t.val t.isLt).2.2.2.1 (iblk m c 4 t) (iblk m c 5 t) := by
  have h1 : ¬cond1 (grid0.coords t) := fun h => c1_not_c4 t h h4
  by_cases h2 : cond2 (grid0.coords t)
  · rw [outsAt_E m c t h1 h2 h4]; unfold tilesE; dsimp only
    rw [out7E_eq, accE_eq, diagE_eq]
  · rw [outsAt_F m c t h1 h2 h4]; unfold tilesF; dsimp only
    rw [out7F_eq, accF_eq]

set_option maxHeartbeats 4000000 in
theorem out8_eq (c : Dev nD) (t : Fin cfg0.N) (h4 : cond4 (grid0.coords t)) :
    (outsAt m c t.val t.isLt).2.2.1
      = k0_pay3 (outsAt m c t.val t.isLt).2.2.2.2 (outsAt m c t.val t.isLt).2.2.2.1 (iblk m c 4 t) (iblk m c 5 t) (iblk m c 5 t) := by
  have h1 : ¬cond1 (grid0.coords t) := fun h => c1_not_c4 t h h4
  by_cases h2 : cond2 (grid0.coords t)
  · rw [outsAt_E m c t h1 h2 h4]; unfold tilesE; dsimp only
    rw [out8E_eq, accE_eq, diagE_eq]
  · rw [outsAt_F m c t h1 h2 h4]; unfold tilesF; dsimp only
    rw [out8F_eq, accF_eq]

end Cert.KernelIdeal.Tile

end
-- ==== Proof.LifTail.lean ====
/-
  The last part of the step on one entry, as scalar functions at the ideal values: from the input current `cur`, the
  potential `v`, the spike `z` and the refractory counter `r` of the entry,
      potential  = DECAY · v + ((1 − DECAY) · cur + (−1) · z)
      fired      = [ (potential − 1) / 1 > 0 ]
      spikes     = 0 where r > 0, else fired as a float
      refrac     = min 5 (max 0 (r − 1 + int (5 · spikes))).
  The float constants are kept as the words both programs spell: the same word on both sides is never evaluated.
-/
import Idealize.ShloMosaic.PureOps.Ideal
import proofs.«142747_j87522843560962_2_alg».proof.Proof.LifSpec

noncomputable section

namespace Cert.Lif

open Idealize.ShloMosaic

def potential (cur v z : EReal) : EReal :=
  Ideal.ofBits .f32 0x3F7383C6#32 * v + (Ideal.ofBits .f32 0x3D47C3A8#32 * cur + Ideal.ofBits .f32 0xBF800000#32 * z)

def fired (nv : EReal) : BitVec 1 :=
  Ideal.cmp .ogt (Ideal.div (nv - Ideal.ofBits .f32 0x3F800000#32) (Ideal.ofBits .f32 0x3F800000#32)) (Ideal.ofBits .f32 0x00000000#32)

def spikes (r : BitVec 32) (nv : EReal) : EReal :=
  Scalar.select (IntOp.cmpi .sgt r 0#32) (Ideal.ofBits .f32 0x00000000#32) (((fired nv).toNat : ℝ) : EReal)

def refrac (r : BitVec 32) (nz : EReal) : BitVec 32 :=
  IntOp.minsi 5#32 (IntOp.maxsi 0#32 (IntOp.addi (IntOp.subi r 1#32) (Ideal.fptosi 32 (nz * Ideal.ofBits .f32 0x40A00000#32))))

end Cert.Lif

end
-- ==== Proof.KI.Tail.lean ====
/-
  The body's three result functions on a tile are, entry by entry, the scalar functions of the step's last part: the
  potential from the accumulator, potential and kept spike entries; the spikes from the refractory counter and that
  potential; the refractory counter from itself and those spikes. The kernel turns the firing bit into a float by widening it
  to 32 bits and converting signed, which is the bit read unsigned.
-/
import proofs.«142747_j87522843560962_2_alg».proof.Proof.Gen.KernelIdeal.Skeleton
import proofs.«142747_j87522843560962_2_alg».proof.Proof.LifTail
import Idealize.ShloMosaic.Lib.ValueIdx

noncomputable section

namespace Cert.KernelIdeal.Tile

open Cert.KernelIdeal Cert.KernelIdeal.Gen Idealize.ShloMosaic Cert.Lif

theorem pay1_apply (dg : Vec Ideal S1024x512 .bf16) (ac vb : Vec Ideal S1024x512 .f32) (y : S1024x512.Idx) :
    k0_pay1 dg ac vb y = potential (ac y) (vb y) (dg y) := rfl

theorem pay2_apply (dg : Vec Ideal S1024x512 .bf16) (ac vb : Vec Ideal S1024x512 .f32) (rb : Vec Ideal S1024x512 .i32)
    (y : S1024x512.Idx) : k0_pay2 dg ac vb rb y = spikes (rb y) (k0_pay1 dg ac vb y) := by
  unfold spikes fired
  show Scalar.select (IntOp.cmpi .sgt (rb y) 0#32) (Ideal.ofBits .f32 0x00000000#32)
      ((((Ideal.cmp .ogt (Ideal.div (k0_pay1 dg ac vb y - Ideal.ofBits .f32 0x3F800000#32) (Ideal.ofBits .f32 0x3F800000#32))
        (Ideal.ofBits .f32 0x00000000#32)).setWidth 32).toInt : ℝ) : EReal) = _
  rw [widen_signed, Int.cast_natCast]

theorem pay3_apply (dg : Vec Ideal S1024x512 .bf16) (ac vb : Vec Ideal S1024x512 .f32) (rb rb' : Vec Ideal S1024x512 .i32)
    (y : S1024x512.Idx) : k0_pay3 dg ac vb rb rb' y = refrac (rb' y) (k0_pay2 dg ac vb rb y) := rfl

end Cert.KernelIdeal.Tile

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.RefBridge.lean ====
/-
  The reference read at an entry, at the ideal values. With x the inputs, v the potentials, r the refractory counters, z the
  spikes and W_in, W_rec the weights, at entry i = (i₀, i₁):
    * the factor jnp builds from the identity matrix is 0 on the diagonal and 1 off it;
    * the input current is  Σ_k x (i₀, k) · W_in (k, i₁)  +  Σ_k z (i₀, k) · (W_rec (k, i₁) · [k ≠ i₁]);
    * the three results are the scalar functions of the step's last part of that current and of v, z, r at i;
    * and each sum over the 4096 contraction positions is the sum over the 8 contraction tiles of the sums inside a tile.
-/
import proofs.«142747_j87522843560962_2_alg».proof.Proof.RefRead
import proofs.«142747_j87522843560962_2_alg».proof.Proof.LibBlockSumGen
import proofs.«142747_j87522843560962_2_alg».proof.Proof.LifTail
import proofs.«142747_j87522843560962_2_alg».proof.Proof.KI.Blocks

noncomputable section

namespace Cert.ReferenceIdeal.Bridge

open Cert.ReferenceIdeal Cert.ReferenceIdeal.ReadP Idealize.ShloMosaic Idealize.ShloMosaic.ValueIdx Cert.Lif Cert.KernelIdeal.Tile
open scoped BigOperators

abbrev Arr : Type := (⟨S4096x4096, .f32⟩ : BufTy).Contents (Elt Ideal)
abbrev ArrI : Type := (⟨S4096x4096, .i32⟩ : BufTy).Contents (Elt Ideal)

/-- An entry at natural coordinates in range is the entry. -/
theorem at2_mk {α : Type} (A : S4096x4096.Idx → α) (r c : ℕ) (hr : r < 4096) (hc : c < 4096) :
    at2 A r c = A (ix2 (⟨r, hr⟩ : Fin 4096) (⟨c, hc⟩ : Fin 4096)) := by
  unfold at2
  congr 1
  funext a
  match a with
  | ⟨0, _⟩ => exact Fin.ext (Nat.mod_eq_of_lt hr)
  | ⟨1, _⟩ => exact Fin.ext (Nat.mod_eq_of_lt hc)

/-- The factor that removes the self-connections. -/
theorem ref_mask (i : S4096x4096.Idx) : val_main_v7 (F := Ideal) i = offDiag (i 0).val (i 1).val := by
  rw [val_main_v7_apply, val_main_v6_apply, val_main_cst_apply, val_main_v5_apply, val_main_v4_apply, val_main_v3_apply,
    val_main_v0_apply, val_main_v2_apply, val_main_c_apply, val_main_v1_apply]
  show Ideal.ofBits .f32 0x3F800000#32
      - ((((IntOp.cmpi .eq (IntOp.addi (BitVec.ofNat 32 (i 0).val) 0#32) (BitVec.ofNat 32 (i 1).val)).toNat : ℕ) : ℝ) : EReal) = _
  rw [show IntOp.addi (BitVec.ofNat 32 (i 0).val) 0#32 = BitVec.ofNat 32 (i 0).val from BitVec.add_zero _,
    eqBit _ _ (idx2_lt0 i) (idx2_lt1 i), one_f32, one_sub_bit_unsigned]

theorem lidx9_eq (i : S4096x4096.Idx) (k : Fin 4096) : lidx_main_v9 i k = ix2 (⟨(i 0).val, idx2_lt0 i⟩ : Fin 4096) k :=
  funext fun a => by match a with | ⟨0, _⟩ => rfl | ⟨1, _⟩ => rfl
theorem ridx9_eq (i : S4096x4096.Idx) (k : Fin 4096) : ridx_main_v9 i k = ix2 k (⟨(i 1).val, idx2_lt1 i⟩ : Fin 4096) :=
  funext fun a => by match a with | ⟨0, _⟩ => rfl | ⟨1, _⟩ => rfl
theorem lidx10_eq (i : S4096x4096.Idx) (k : Fin 4096) : lidx_main_v10 i k = ix2 (⟨(i 0).val, idx2_lt0 i⟩ : Fin 4096) k :=
  funext fun a => by match a with | ⟨0, _⟩ => rfl | ⟨1, _⟩ => rfl
theorem ridx10_eq (i : S4096x4096.Idx) (k : Fin 4096) : ridx_main_v10 i k = ix2 k (⟨(i 1).val, idx2_lt1 i⟩ : Fin 4096) :=
  funext fun a => by match a with | ⟨0, _⟩ => rfl | ⟨1, _⟩ => rfl

/-- The input current at an entry: the two whole contractions. -/
theorem ref_cur (x0 x3 x4 x5 : S4096x4096.Idx → EReal) (i : S4096x4096.Idx) :
    val_main_v13 (F := Ideal) x0 x3 x4 x5 i
      = (∑ k : Fin 4096, at2 x0 (i 0).val k.val * at2 x4 k.val (i 1).val)
        + ∑ k : Fin 4096, at2 x3 (i 0).val k.val * (at2 x5 k.val (i 1).val * offDiag k.val (i 1).val) := by
  rw [val_main_v13_apply, val_main_v9_apply, val_main_v10_apply]
  show (∑ k : Fin 4096, x0 (lidx_main_v9 i k) * x4 (ridx_main_v9 i k))
      + (∑ k : Fin 4096, x3 (lidx_main_v10 i k) * val_main_v8 (F := Ideal) x5 (ridx_main_v10 i k)) = _
  congr 1
  · refine Finset.sum_congr rfl fun k _ => ?_
    rw [lidx9_eq, ridx9_eq, at2_mk x0 _ _ (idx2_lt0 i) k.isLt, at2_mk x4 _ _ k.isLt (idx2_lt1 i)]
  · refine Finset.sum_congr rfl fun k _ => ?_
    rw [lidx10_eq, ridx10_eq, val_main_v8_apply, ref_mask, at2_mk x3 _ _ (idx2_lt0 i) k.isLt, at2_mk x5 _ _ k.isLt (idx2_lt1 i)]
    rfl

/-- A contraction over 4096 positions, tile by tile: 8 tiles of 512. -/
theorem cur_blocks (X Win Z Wrec : S4096x4096.Idx → EReal) (r c : ℕ) :
    (∑ k : Fin 4096, at2 X r k.val * at2 Win k.val c) + (∑ k : Fin 4096, at2 Z r k.val * (at2 Wrec k.val c * offDiag k.val c))
      = ∑ kb ∈ Finset.range 8, ((∑ l : Fin 512, at2 X r (512 * kb + l.val) * at2 Win (512 * kb + l.val) c)
          + (∑ l : Fin 512, at2 Z r (512 * kb + l.val) * (at2 Wrec (512 * kb + l.val) c * offDiag (512 * kb + l.val) c))) := by
  rw [Cert.LibBlockSumGen.sum_blocks (K := 8) (B := 512) rfl (fun k : Fin 4096 => at2 X r k.val * at2 Win k.val c),
    Cert.LibBlockSumGen.sum_blocks (K := 8) (B := 512) rfl (fun k : Fin 4096 => at2 Z r k.val * (at2 Wrec k.val c * offDiag k.val c)),
    ← Finset.sum_add_distrib, Finset.sum_range]

/-- The three results at an entry. -/
theorem ref_v19 (x0 x1 x3 x4 x5 : S4096x4096.Idx → EReal) (i : S4096x4096.Idx) :
    val_main_v19 (F := Ideal) x0 x1 x3 x4 x5 i = potential (val_main_v13 (F := Ideal) x0 x3 x4 x5 i) (x1 i) (x3 i) := by
  rw [val_main_v19_apply, val_main_v18_apply, val_main_v17_apply, val_main_cst_2_apply, val_main_v16_apply, val_main_v15_apply,
    val_main_v14_apply, val_main_cst_1_apply, val_main_v12_apply, val_main_v11_apply, val_main_cst_0_apply]
  rfl

theorem ref_v29 (x0 x1 : S4096x4096.Idx → EReal) (x2 : S4096x4096.Idx → BitVec 32) (x3 x4 x5 : S4096x4096.Idx → EReal)
    (i : S4096x4096.Idx) :
    val_main_v29 (F := Ideal) x0 x1 x2 x3 x4 x5 i = spikes (x2 i) (val_main_v19 (F := Ideal) x0 x1 x3 x4 x5 i) := by
  rw [val_main_v29_apply, val_main_v28_apply, val_main_v27_apply, val_main_c_6_apply, val_main_call0_v1_apply,
    val_main_call0_v0_apply, val_main_cst_7_apply, val_main_v26_apply, val_main_v25_apply, val_main_v23_apply, val_main_v21_apply,
    val_main_v20_apply, val_main_cst_3_apply, val_main_v22_apply, val_main_cst_4_apply, val_main_v24_apply, val_main_cst_5_apply]
  rfl

theorem ref_v36 (x0 x1 : S4096x4096.Idx → EReal) (x2 : S4096x4096.Idx → BitVec 32) (x3 x4 x5 : S4096x4096.Idx → EReal)
    (i : S4096x4096.Idx) :
    val_main_v36 (F := Ideal) x0 x1 x2 x3 x4 x5 i = refrac (x2 i) (val_main_v29 (F := Ideal) x0 x1 x2 x3 x4 x5 i) := by
  rw [val_main_v36_apply, val_main_call1_v4_apply, val_main_call1_v3_apply, val_main_c_11_apply, val_main_call1_v2_apply,
    val_main_call1_v1_apply, val_main_call1_v0_apply, val_main_c_10_apply, val_main_v35_apply, val_main_v31_apply,
    val_main_v30_apply, val_main_c_8_apply, val_main_v34_apply, val_main_v33_apply, val_main_v32_apply, val_main_cst_9_apply]
  rfl

end Cert.ReferenceIdeal.Bridge

end
-- ==== Proof.KI.Final.lean ====
/-
  The three result arrays after the kernel's run. Let G₆, G₇, G₈ be the reference's three results as functions of the six
  arrays the kernel reads (read at an entry: the scalar functions of the step's last part of the whole input current).
  At the last point K = 7 of the sweep of an output tile (I, J), what the kernel writes back is the (I, J) block of each G:
  at entry (p, q) of the tile the accumulator holds the contributions of the contraction tiles 0..7, which is the whole
  input current at (1024 I + p, 512 J + q) taken tile by tile; the kept spike tile, the potentials and the refractory
  counters are the arrays' (I, J) tiles. The 32 output tiles cover the arrays, so the arrays end at G₆, G₇, G₈.
-/
import proofs.«142747_j87522843560962_2_alg».proof.Proof.KI.Invariant
import proofs.«142747_j87522843560962_2_alg».proof.Proof.KI.Tail
import proofs.«142747_j87522843560962_2_alg».proof.Proof.RefBridge

set_option maxRecDepth 16384

noncomputable section

namespace Cert.KernelIdeal.Tile

open Cert.KernelIdeal Cert.KernelIdeal.Gen Cert.KernelIdeal.Body Cert.Lif Cert.ReferenceIdeal.Bridge
open Idealize.ShloMosaic Idealize.ShloMosaic.TcCoe Idealize.ShloMosaic.ValueIdx Idealize.SL.Sem
open Idealize.ShloMosaic.Pipeline (Dat)
open scoped BigOperators

/-! ## Decided over the grid: where the results are written back, and that every output tile has its last point -/

theorem flush_facts : ∀ t : Fin cfg0.N,
    ((cfg0.win 6).flush t = true → cond4 (grid0.coords t)) ∧ ((cfg0.win 7).flush t = true → cond4 (grid0.coords t))
    ∧ ((cfg0.win 8).flush t = true → cond4 (grid0.coords t)) :=
  (by decide +kernel : ∀ t : Fin grid0.N, _)

theorem tile_onto : ∀ (a : Fin 4) (b : Fin 8), ∃ t : Fin cfg0.N,
    (cfg0.win 6).flush t = true ∧ (cfg0.win 7).flush t = true ∧ (cfg0.win 8).flush t = true ∧ gI t = a.val ∧ gJ t = b.val :=
  (by decide +kernel : ∀ (a : Fin 4) (b : Fin 8), ∃ t : Fin grid0.N, _)

theorem g_lt (t : Fin cfg0.N) : gI t < 4 ∧ gJ t < 8 ∧ gK t < 8 := by
  obtain ⟨-, -, -, -, -, -, -, -, -, -, -, -, -, -, -, -, -, -, h⟩ := idx_facts t
  exact h

/-- The entry of the arrays under entry (p, q) of the output tile of point `t`. -/
def gidx (t : Fin cfg0.N) (p : Fin 1024) (q : Fin 512) : S4096x4096.Idx :=
  ix2 (⟨1024 * gI t + p.val, by have := g_lt t; have := p.isLt; omega⟩ : Fin 4096)
    (⟨512 * gJ t + q.val, by have := g_lt t; have := q.isLt; omega⟩ : Fin 4096)

theorem at2_gidx {α : Type} (A : S4096x4096.Idx → α) (t : Fin cfg0.N) (p : Fin 1024) (q : Fin 512) :
    at2 A (1024 * gI t + p.val) (512 * gJ t + q.val) = A (gidx t p q) := by
  unfold gidx
  exact at2_mk A _ _ _ _

variable (m : (ℓ : Loc nD τ sig) → Buf (Elt Ideal) ℓ)

abbrev aV0 (c : Dev nD) : S4096x4096.Idx → EReal := V m c main_arg1
abbrev aR0 (c : Dev nD) : S4096x4096.Idx → BitVec 32 := V m c main_arg2

/-- The reference's three results, of the arrays the kernel reads. -/
abbrev G6 (c : Dev nD) : S4096x4096.Idx → EReal :=
  Cert.ReferenceIdeal.ReadP.val_main_v19 (F := Ideal) (aX m c) (aV0 m c) (aZ m c) (aWin m c) (aWrec m c)
abbrev G7 (c : Dev nD) : S4096x4096.Idx → EReal :=
  Cert.ReferenceIdeal.ReadP.val_main_v29 (F := Ideal) (aX m c) (aV0 m c) (aR0 m c) (aZ m c) (aWin m c) (aWrec m c)
abbrev G8 (c : Dev nD) : S4096x4096.Idx → BitVec 32 :=
  Cert.ReferenceIdeal.ReadP.val_main_v36 (F := Ideal) (aX m c) (aV0 m c) (aR0 m c) (aZ m c) (aWin m c) (aWrec m c)

/-! ## The tiles at a last contraction step, as entries of the arrays -/

/-- The accumulator tile is the whole input current. -/
theorem cur_at (c : Dev nD) (t : Fin cfg0.N) (h4 : cond4 (grid0.coords t)) (p : Fin 1024) (q : Fin 512) :
    (outsAt m c t.val t.isLt).2.2.2.1 (ix2 p q)
      = Cert.ReferenceIdeal.ReadP.val_main_v13 (F := Ideal) (aX m c) (aZ m c) (aWin m c) (aWrec m c) (gidx t p q) := by
  have hk : gK t = 7 := (cond_facts t).2.2.mp h4
  rw [acc_inv m c t.val t rfl p q, hk, ref_cur]
  show _ = (∑ k : Fin 4096, at2 (aX m c) (1024 * gI t + p.val) k.val * at2 (aWin m c) k.val (512 * gJ t + q.val))
      + ∑ k : Fin 4096, at2 (aZ m c) (1024 * gI t + p.val) k.val * (at2 (aWrec m c) k.val (512 * gJ t + q.val) * offDiag k.val (512 * gJ t + q.val))
  rw [cur_blocks]
  rfl

/-- The kept spike tile is the spikes' tile. -/
theorem diag_at (c : Dev nD) (t : Fin cfg0.N) (h4 : cond4 (grid0.coords t)) (p : Fin 1024) (q : Fin 512) :
    (outsAt m c t.val t.isLt).2.2.2.2 (ix2 p q) = aZ m c (gidx t p q) := by
  have hk : gK t = 7 := (cond_facts t).2.2.mp h4
  have := g_lt t
  rw [diag_inv m c t.val t rfl (by omega) p q, at2_gidx]

theorem v0_at (c : Dev nD) (t : Fin cfg0.N) (p : Fin 1024) (q : Fin 512) : iblk m c 4 t (ix2 p q) = aV0 m c (gidx t p q) := by
  rw [iblk4_apply m c t (ix2 p q)]
  exact at2_gidx (aV0 m c) t p q
theorem r0_at (c : Dev nD) (t : Fin cfg0.N) (p : Fin 1024) (q : Fin 512) : iblk m c 5 t (ix2 p q) = aR0 m c (gidx t p q) := by
  rw [iblk5_apply m c t (ix2 p q)]
  exact at2_gidx (aR0 m c) t p q

/-- The three results at entry (p, q) of the tile are the reference's at the entry of the arrays. -/
theorem res6_at (c : Dev nD) (t : Fin cfg0.N) (h4 : cond4 (grid0.coords t)) (p : Fin 1024) (q : Fin 512) :
    (outsAt m c t.val t.isLt).1 (ix2 p q) = G6 m c (gidx t p q) := by
  rw [out6_eq m c t h4, pay1_apply, cur_at m c t h4, diag_at m c t h4, v0_at,
    show G6 m c (gidx t p q) = _ from ref_v19 _ _ _ _ _ _]
theorem res7_at (c : Dev nD) (t : Fin cfg0.N) (h4 : cond4 (grid0.coords t)) (p : Fin 1024) (q : Fin 512) :
    (outsAt m c t.val t.isLt).2.1 (ix2 p q) = G7 m c (gidx t p q) := by
  rw [out7_eq m c t h4, pay2_apply, pay1_apply, cur_at m c t h4, diag_at m c t h4, v0_at, r0_at,
    show G7 m c (gidx t p q) = _ from ref_v29 _ _ _ _ _ _ _, ref_v19]
theorem res8_at (c : Dev nD) (t : Fin cfg0.N) (h4 : cond4 (grid0.coords t)) (p : Fin 1024) (q : Fin 512) :
    (outsAt m c t.val t.isLt).2.2.1 (ix2 p q) = G8 m c (gidx t p q) := by
  rw [out8_eq m c t h4, pay3_apply, pay2_apply, pay1_apply, cur_at m c t h4, diag_at m c t h4, v0_at, r0_at,
    show G8 m c (gidx t p q) = _ from ref_v36 _ _ _ _ _ _ _, ref_v29, ref_v19]

/-! ## From the blocks to the arrays -/

/-- Entry (p, q) of output window 6's block at point `t` is the arrays' entry under it. -/
theorem emb6 (t : Fin cfg0.N) (p : Fin 1024) (q : Fin 512) : ((cfg0.win 6).blk t).view.emb (ix2 p q) = gidx t p q := by
  obtain ⟨-, -, -, -, -, -, -, -, -, -, -, -, e0, e1, -, -, -, -, hI, hJ, hK⟩ := idx_facts t
  have hp := p.isLt
  have hq := q.isLt
  unfold gidx
  funext a; apply Fin.ext
  match a with
  | ⟨0, _⟩ => show win0_6.index t (0 : Fin 2) * 1024 + 1 * p.val = 1024 * gI t + p.val; omega
  | ⟨1, _⟩ => show win0_6.index t (1 : Fin 2) * 512 + 1 * q.val = 512 * gJ t + q.val; omega

/-- A tile whose entries are a function of the arrays' entries under them is, cut to what the write-back moves, the block of
    that function (window 6). -/
theorem block6_of_entries (t : Fin cfg0.N) (G : S4096x4096.Idx → EReal) (X : Vec Ideal S1024x512 .f32)
    (hX : ∀ (p : Fin 1024) (q : Fin 512), X (ix2 p q) = G (gidx t p q)) :
    (cfg0.win 6).cut (grid0.coords t) X = ((cfg0.win 6).blk t).view.read (Elt Ideal) G := by
  funext y
  obtain ⟨p, q, rfl⟩ : ∃ (p : Fin 1024) (q : Fin 512), y = ix2 p q := ⟨y 0, y 1, eq_ix2 y⟩
  show X (ix2 p q) = G (((cfg0.win 6).blk t).view.emb (ix2 p q))
  rw [emb6, hX]

/-- WHAT A LAST POINT WRITES BACK through window 6 is the block of G6. -/
theorem flushed6_eq (c : Dev nD) (t : Fin cfg0.N) (hf : (cfg0.win 6).flush t = true) :
    (dats m 0 c).flushed 6 t = ((cfg0.win 6).blk t).view.read (Elt Ideal) (G6 m c) := by
  have h4 : cond4 (grid0.coords t) := (flush_facts t).1 hf
  show (cfg0.win 6).cut (grid0.coords t) ((dats m 0 c).after 6 t) = _
  rw [after6]
  exact block6_of_entries t (G6 m c) _ (fun p q => res6_at m c t h4 p q)

/-- An entry of the array is in point `t`'s block iff each coordinate is in the block's range on its axis. -/
theorem mem_blk6 (t : Fin cfg0.N) (i : S4096x4096.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v4_0).slice (win0_6.rect t)).set ↔ _
  rw [View.set_slice_whole, Rect.mem_set_unit]
  exact Iff.rfl

/-- Every entry lies in the block some last point writes back. -/
theorem cover6 (i : S4096x4096.Idx) : ∃ t : Fin cfg0.N, (cfg0.win 6).flush t = true ∧ i ∈ ((cfg0.win 6).blk t).view.set := by
  have hi0 : (i 0).val < 4096 := idx2_lt0 i
  have hi1 : (i 1).val < 4096 := idx2_lt1 i
  obtain ⟨t, hf6, hf7, hf8, hI, hJ⟩ := tile_onto ⟨(i 0).val / 1024, by omega⟩ ⟨(i 1).val / 512, by omega⟩
  obtain ⟨-, -, -, -, -, -, -, -, -, -, -, -, e0, e1, -, -, -, -, -, -, -⟩ := idx_facts t
  have hI' : gI t = (i 0).val / 1024 := hI
  have hJ' : gJ t = (i 1).val / 512 := hJ
  refine ⟨t, hf6, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- THE ARRAY after the run. -/
theorem final6 (c : Dev nD) : (dats m 0 c).arrAt 6 cfg0.N = G6 m c :=
  (dats m 0 c).arrAt_eq_of_cover 6 (G6 m c) (fun t hf => flushed6_eq m c t hf) cover6

/-- Entry (p, q) of output window 7's block at point `t` is the arrays' entry under it. -/
theorem emb7 (t : Fin cfg0.N) (p : Fin 1024) (q : Fin 512) : ((cfg0.win 7).blk t).view.emb (ix2 p q) = gidx t p q := by
  obtain ⟨-, -, -, -, -, -, -, -, -, -, -, -, -, -, e0, e1, -, -, hI, hJ, hK⟩ := idx_facts t
  have hp := p.isLt
  have hq := q.isLt
  unfold gidx
  funext a; apply Fin.ext
  match a with
  | ⟨0, _⟩ => show win0_7.index t (0 : Fin 2) * 1024 + 1 * p.val = 1024 * gI t + p.val; omega
  | ⟨1, _⟩ => show win0_7.index t (1 : Fin 2) * 512 + 1 * q.val = 512 * gJ t + q.val; omega

/-- A tile whose entries are a function of the arrays' entries under them is, cut to what the write-back moves, the block of
    that function (window 7). -/
theorem block7_of_entries (t : Fin cfg0.N) (G : S4096x4096.Idx → EReal) (X : Vec Ideal S1024x512 .f32)
    (hX : ∀ (p : Fin 1024) (q : Fin 512), X (ix2 p q) = G (gidx t p q)) :
    (cfg0.win 7).cut (grid0.coords t) X = ((cfg0.win 7).blk t).view.read (Elt Ideal) G := by
  funext y
  obtain ⟨p, q, rfl⟩ : ∃ (p : Fin 1024) (q : Fin 512), y = ix2 p q := ⟨y 0, y 1, eq_ix2 y⟩
  show X (ix2 p q) = G (((cfg0.win 7).blk t).view.emb (ix2 p q))
  rw [emb7, hX]

/-- WHAT A LAST POINT WRITES BACK through window 7 is the block of G7. -/
theorem flushed7_eq (c : Dev nD) (t : Fin cfg0.N) (hf : (cfg0.win 7).flush t = true) :
    (dats m 0 c).flushed 7 t = ((cfg0.win 7).blk t).view.read (Elt Ideal) (G7 m c) := by
  have h4 : cond4 (grid0.coords t) := (flush_facts t).2.1 hf
  show (cfg0.win 7).cut (grid0.coords t) ((dats m 0 c).after 7 t) = _
  rw [after7]
  exact block7_of_entries t (G7 m c) _ (fun p q => res7_at m c t h4 p q)

/-- An entry of the array is in point `t`'s block iff each coordinate is in the block's range on its axis. -/
theorem mem_blk7 (t : Fin cfg0.N) (i : S4096x4096.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v4_1).slice (win0_7.rect t)).set ↔ _
  rw [View.set_slice_whole, Rect.mem_set_unit]
  exact Iff.rfl

/-- Every entry lies in the block some last point writes back. -/
theorem cover7 (i : S4096x4096.Idx) : ∃ t : Fin cfg0.N, (cfg0.win 7).flush t = true ∧ i ∈ ((cfg0.win 7).blk t).view.set := by
  have hi0 : (i 0).val < 4096 := idx2_lt0 i
  have hi1 : (i 1).val < 4096 := idx2_lt1 i
  obtain ⟨t, hf6, hf7, hf8, hI, hJ⟩ := tile_onto ⟨(i 0).val / 1024, by omega⟩ ⟨(i 1).val / 512, by omega⟩
  obtain ⟨-, -, -, -, -, -, -, -, -, -, -, -, -, -, e0, e1, -, -, -, -, -⟩ := idx_facts t
  have hI' : gI t = (i 0).val / 1024 := hI
  have hJ' : gJ t = (i 1).val / 512 := hJ
  refine ⟨t, hf7, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- THE ARRAY after the run. -/
theorem final7 (c : Dev nD) : (dats m 0 c).arrAt 7 cfg0.N = G7 m c :=
  (dats m 0 c).arrAt_eq_of_cover 7 (G7 m c) (fun t hf => flushed7_eq m c t hf) cover7

/-- Entry (p, q) of output window 8's block at point `t` is the arrays' entry under it. -/
theorem emb8 (t : Fin cfg0.N) (p : Fin 1024) (q : Fin 512) : ((cfg0.win 8).blk t).view.emb (ix2 p q) = gidx t p q := by
  obtain ⟨-, -, -, -, -, -, -, -, -, -, -, -, -, -, -, -, e0, e1, hI, hJ, hK⟩ := idx_facts t
  have hp := p.isLt
  have hq := q.isLt
  unfold gidx
  funext a; apply Fin.ext
  match a with
  | ⟨0, _⟩ => show win0_8.index t (0 : Fin 2) * 1024 + 1 * p.val = 1024 * gI t + p.val; omega
  | ⟨1, _⟩ => show win0_8.index t (1 : Fin 2) * 512 + 1 * q.val = 512 * gJ t + q.val; omega

/-- A tile whose entries are a function of the arrays' entries under them is, cut to what the write-back moves, the block of
    that function (window 8). -/
theorem block8_of_entries (t : Fin cfg0.N) (G : S4096x4096.Idx → BitVec 32) (X : Vec Ideal S1024x512 .i32)
    (hX : ∀ (p : Fin 1024) (q : Fin 512), X (ix2 p q) = G (gidx t p q)) :
    (cfg0.win 8).cut (grid0.coords t) X = ((cfg0.win 8).blk t).view.read (Elt Ideal) G := by
  funext y
  obtain ⟨p, q, rfl⟩ : ∃ (p : Fin 1024) (q : Fin 512), y = ix2 p q := ⟨y 0, y 1, eq_ix2 y⟩
  show X (ix2 p q) = G (((cfg0.win 8).blk t).view.emb (ix2 p q))
  rw [emb8, hX]

/-- WHAT A LAST POINT WRITES BACK through window 8 is the block of G8. -/
theorem flushed8_eq (c : Dev nD) (t : Fin cfg0.N) (hf : (cfg0.win 8).flush t = true) :
    (dats m 0 c).flushed 8 t = ((cfg0.win 8).blk t).view.read (Elt Ideal) (G8 m c) := by
  have h4 : cond4 (grid0.coords t) := (flush_facts t).2.2 hf
  show (cfg0.win 8).cut (grid0.coords t) ((dats m 0 c).after 8 t) = _
  rw [after8]
  exact block8_of_entries t (G8 m c) _ (fun p q => res8_at m c t h4 p q)

/-- An entry of the array is in point `t`'s block iff each coordinate is in the block's range on its axis. -/
theorem mem_blk8 (t : Fin cfg0.N) (i : S4096x4096.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v4_2).slice (win0_8.rect t)).set ↔ _
  rw [View.set_slice_whole, Rect.mem_set_unit]
  exact Iff.rfl

/-- Every entry lies in the block some last point writes back. -/
theorem cover8 (i : S4096x4096.Idx) : ∃ t : Fin cfg0.N, (cfg0.win 8).flush t = true ∧ i ∈ ((cfg0.win 8).blk t).view.set := by
  have hi0 : (i 0).val < 4096 := idx2_lt0 i
  have hi1 : (i 1).val < 4096 := idx2_lt1 i
  obtain ⟨t, hf6, hf7, hf8, hI, hJ⟩ := tile_onto ⟨(i 0).val / 1024, by omega⟩ ⟨(i 1).val / 512, by omega⟩
  obtain ⟨-, -, -, -, -, -, -, -, -, -, -, -, -, -, -, -, e0, e1, -, -, -⟩ := idx_facts t
  have hI' : gI t = (i 0).val / 1024 := hI
  have hJ' : gJ t = (i 1).val / 512 := hJ
  refine ⟨t, hf8, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- THE ARRAY after the run. -/
theorem final8 (c : Dev nD) : (dats m 0 c).arrAt 8 cfg0.N = G8 m c :=
  (dats m 0 c).arrAt_eq_of_cover 8 (G8 m c) (fun t hf => flushed8_eq m c t hf) cover8

/-! ## The four matrix operands are the arguments, and the run read -/

theorem V_v0 (c : Dev nD) : aX m c = m ((c.tc : Thread nD τ).loc main_arg0) := by
  show (V m c main_v0 : S4096x4096.Idx → EReal) = _
  dsimp only [Gen.V, Gen.hostOps0]; after_results; rfl
theorem V_v1 (c : Dev nD) : aZ m c = m ((c.tc : Thread nD τ).loc main_arg3) := by
  show (V m c main_v1 : S4096x4096.Idx → EReal) = _
  dsimp only [Gen.V, Gen.hostOps0]; after_results; rfl
theorem V_v2 (c : Dev nD) : aWin m c = m ((c.tc : Thread nD τ).loc main_arg4) := by
  show (V m c main_v2 : S4096x4096.Idx → EReal) = _
  dsimp only [Gen.V, Gen.hostOps0]; after_results; rfl
theorem V_v3 (c : Dev nD) : aWrec m c = m ((c.tc : Thread nD τ).loc main_arg5) := by
  show (V m c main_v3 : S4096x4096.Idx → EReal) = _
  dsimp only [Gen.V, Gen.hostOps0]; after_results; rfl

/-- The kernel's run: the three result arrays end at the reference's functions of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v4_0) = G6 m c
      ∧ r.2.mem ((c.tc : Thread nD τ).loc main_v4_1) = G7 m c
      ∧ r.2.mem ((c.tc : Thread nD τ).loc main_v4_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c), ((h c).1 7).trans (final7 m c), ((h c).1 8).trans (final8 m c),
      ((h c).2 main_arg0 (Pipeline.mem_restRefs_of main_arg0 (by decide) (by decide))).trans (V_main_arg0 m c),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Tile

end
-- ==== Proof.lean ====
/-
  The certificate of the fused leaky integrate-and-fire step: a tiled Pallas kernel against its plain jnp reference.
  Both compute, for spikes z, potentials v, refractory counters r, inputs x and weights W_in, W_rec,
      cur   = x · W_in + z · (W_rec with its diagonal zeroed)
      v'    = DECAY · v + ((1 − DECAY) · cur − z)
      z'    = 0 where r > 0, else [ (v' − 1) / 1 > 0 ]
      r'    = clip(r − 1 + int(5 · z'), 0, 5).
  The kernel walks a grid (i, j, k) of row, column and contraction tiles, accumulating the two products of each contraction
  tile into a scratch tile and computing v', z', r' of the (i, j) tile at the last contraction step; the reference computes
  the two products whole. At the ideal values the only law between the two is that a sum may be taken block by block.
  The three frames: the kernel's (at the word level and at the ideal values) from the run of its pipeline with the scratch
  tiles tracked point by point; the reference's from its run, the results dropped. The idealization rewrote nothing.
-/
import proofs.«142747_j87522843560962_2_alg».proof.Defs
import proofs.«142747_j87522843560962_2_alg».proof.Proof.Gen.Kernel
import proofs.«142747_j87522843560962_2_alg».proof.Proof.Gen.KernelIdeal
import proofs.«142747_j87522843560962_2_alg».proof.Proof.Gen.ReferenceIdeal
import proofs.«142747_j87522843560962_2_alg».proof.Proof.Gen.Pre_finite_inputs
import proofs.«142747_j87522843560962_2_alg».proof.Proof.RefRun
import proofs.«142747_j87522843560962_2_alg».proof.Proof.RefRead
import proofs.«142747_j87522843560962_2_alg».proof.Proof.KB.Acc
import proofs.«142747_j87522843560962_2_alg».proof.Proof.KI.Acc
import proofs.«142747_j87522843560962_2_alg».proof.Proof.KI.Final
import Idealize.ShloMosaic.Adequacy
import Idealize.ShloMosaic.Init

noncomputable section

namespace Cert.Proof

open Idealize.ShloMosaic Idealize.SL.Sem

/-- The kernel as printed runs to the end and leaves its six arguments as they were. -/
theorem frame_k [Cert.Kernel.Facts] [Cert.Pre_finite_inputs.Facts] : Cert.frame_Kernel :=
  fun m ρ _ => Cert.Kernel.Body.frame m ρ
/-- So does the kernel read at the ideal values. -/
theorem frame_ki [Cert.KernelIdeal.Facts] [Cert.Pre_finite_inputs.Facts] : Cert.frame_KernelIdeal :=
  fun m ρ _ => Cert.KernelIdeal.Body.frame m ρ
/-- And the reference: its run, the three results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.ValueP.run (F := Ideal) m ρ)

/-- At the ideal values both programs end with the same three results: the kernel's result arrays are the reference's three
    functions of the arguments (the accumulator tile at the last contraction step is the whole input current, a sum taken tile
    by tile), and the reference's run ends at those functions of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Tile.G6 m c, fun c => Cert.KernelIdeal.Tile.G7 m c, fun c => Cert.KernelIdeal.Tile.G8 m c,
    Cert.KernelIdeal.Tile.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.ValueP.run (F := Ideal) m' ρ')
  · rw [Cert.ReferenceIdeal.ReadP.val_main_v19_eq, (hagree c).1, (hagree c).2.1, (hagree c).2.2.2.1, (hagree c).2.2.2.2.1,
      (hagree c).2.2.2.2.2]
    show Cert.ReferenceIdeal.ReadP.val_main_v19 (F := Ideal) _ _ _ _ _
      = Cert.ReferenceIdeal.ReadP.val_main_v19 (F := Ideal) (Cert.KernelIdeal.Tile.aX m c) (Cert.KernelIdeal.Tile.aV0 m c)
          (Cert.KernelIdeal.Tile.aZ m c) (Cert.KernelIdeal.Tile.aWin m c) (Cert.KernelIdeal.Tile.aWrec m c)
    rw [Cert.KernelIdeal.Tile.V_v0 m c, Cert.KernelIdeal.Tile.V_v1 m c, Cert.KernelIdeal.Tile.V_v2 m c, Cert.KernelIdeal.Tile.V_v3 m c,
      show Cert.KernelIdeal.Tile.aV0 m c = _ from Cert.KernelIdeal.Gen.V_main_arg1 m c]
  · rw [Cert.ReferenceIdeal.ReadP.val_main_v29_eq, (hagree c).1, (hagree c).2.1, (hagree c).2.2.1, (hagree c).2.2.2.1,
      (hagree c).2.2.2.2.1, (hagree c).2.2.2.2.2]
    show Cert.ReferenceIdeal.ReadP.val_main_v29 (F := Ideal) _ _ _ _ _ _
      = Cert.ReferenceIdeal.ReadP.val_main_v29 (F := Ideal) (Cert.KernelIdeal.Tile.aX m c) (Cert.KernelIdeal.Tile.aV0 m c)
          (Cert.KernelIdeal.Tile.aR0 m c) (Cert.KernelIdeal.Tile.aZ m c) (Cert.KernelIdeal.Tile.aWin m c) (Cert.KernelIdeal.Tile.aWrec m c)
    rw [Cert.KernelIdeal.Tile.V_v0 m c, Cert.KernelIdeal.Tile.V_v1 m c, Cert.KernelIdeal.Tile.V_v2 m c, Cert.KernelIdeal.Tile.V_v3 m c,
      show Cert.KernelIdeal.Tile.aV0 m c = _ from Cert.KernelIdeal.Gen.V_main_arg1 m c,
      show Cert.KernelIdeal.Tile.aR0 m c = _ from Cert.KernelIdeal.Gen.V_main_arg2 m c]
  · rw [Cert.ReferenceIdeal.ReadP.val_main_v36_eq, (hagree c).1, (hagree c).2.1, (hagree c).2.2.1, (hagree c).2.2.2.1,
      (hagree c).2.2.2.2.1, (hagree c).2.2.2.2.2]
    show Cert.ReferenceIdeal.ReadP.val_main_v36 (F := Ideal) _ _ _ _ _ _
      = Cert.ReferenceIdeal.ReadP.val_main_v36 (F := Ideal) (Cert.KernelIdeal.Tile.aX m c) (Cert.KernelIdeal.Tile.aV0 m c)
          (Cert.KernelIdeal.Tile.aR0 m c) (Cert.KernelIdeal.Tile.aZ m c) (Cert.KernelIdeal.Tile.aWin m c) (Cert.KernelIdeal.Tile.aWrec m c)
    rw [Cert.KernelIdeal.Tile.V_v0 m c, Cert.KernelIdeal.Tile.V_v1 m c, Cert.KernelIdeal.Tile.V_v2 m c, Cert.KernelIdeal.Tile.V_v3 m c,
      show Cert.KernelIdeal.Tile.aV0 m c = _ from Cert.KernelIdeal.Gen.V_main_arg1 m c,
      show Cert.KernelIdeal.Tile.aR0 m c = _ from Cert.KernelIdeal.Gen.V_main_arg2 m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
